-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S4096 : Shape := ⟨1, ![4096]⟩
abbrev S4096x1 : Shape := ⟨2, ![4096, 1]⟩
abbrev S1x4096 : Shape := ⟨2, ![1, 4096]⟩
abbrev S1x1 : Shape := ⟨2, ![1, 1]⟩
abbrev S512x1024 : Shape := ⟨2, ![512, 1024]⟩
abbrev S512x1 : Shape := ⟨2, ![512, 1]⟩
abbrev S1x512 : Shape := ⟨2, ![1, 512]⟩
abbrev S1024x512 : Shape := ⟨2, ![1024, 512]⟩
abbrev S512x512 : Shape := ⟨2, ![512, 512]⟩
abbrev S512 : Shape := ⟨1, ![512]⟩
abbrev S1 : Shape := ⟨1, ![1]⟩
abbrev S_ : Shape := ⟨0, ![]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S1x1, .f32⟩
  | .local _ .vmem, ⟨9, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v53 : BitVec 1 := Scalar.cmpi .eq arg0 c7_i32
  let arg1 : BitVec 32 := BitVec.ofNat 32 (i 1).val
  let c7_i32_24 : BitVec 32 := 7#32
  let v54 : BitVec 1 := Scalar.cmpi .eq arg1 c7_i32_24
  let v55 : BitVec 1 := Scalar.andi v53 v54
  let v56 : BitVec 32 := Scalar.extui v55
  let c0_i32_25 : BitVec 32 := 0#32
  let v57 : BitVec 1 := Scalar.cmpi .ne v56 c0_i32_25
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S4096_S4096x1 : S4096.ShapeCasts S4096x1
  shapeCasts_S4096_S1x4096 : S4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  transposes_S512x1024_p1_0_S1024x512 : S512x1024.Transposes [1, 0] S1024x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S1024x4096 : Shape := ⟨2, ![1024, 4096]⟩
abbrev S4096x4096 : Shape := ⟨2, ![4096, 4096]⟩
abbrev S4096x1 : Shape := ⟨2, ![4096, 1]⟩
abbrev S1x4096 : Shape := ⟨2, ![1, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S1024x4096, .f32⟩
  | .hbm, ⟨3, _⟩ => ⟨S4096x4096, .f32⟩
  | .hbm, ⟨4, _⟩ => ⟨S4096x1, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S4096x4096, .i32⟩
  | .hbm, ⟨10, _⟩ => ⟨S4096x4096, .i32⟩
  | .hbm, ⟨11, _⟩ => ⟨S_, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S4096x4096, .i1⟩
  | .hbm, ⟨16, _⟩ => ⟨S4096x4096, .i1⟩
  | .hbm, ⟨17, _⟩ => ⟨S4096x4096, .i1⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096x4096, .f32⟩
  | .hbm, ⟨29, _⟩ => ⟨S4096x4096, .i1⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  h_S_ : 0 < S_.numel
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.WordStage.lean ====
/-
  The pairwise-similarity kernel runs an 8 x 8 grid of 512 x 512 tiles of x xᵀ. This module fixes the vocabulary the
  three runs of its body share: what the core's buffers hold when the region is entered (the class labels reshaped
  to a column and to a row by the two host lines before it), the program as those lines, the region and the three
  lines after it, the block of each input window at a grid point, the two conditions of the body — "this is the
  first point" (the running total is reset) and "this is the last point" (the total is copied to the output) — in
  closed form over the 64 points, where the output window is idle, and the region invariant with the [1,1] scratch
  that carries the running total opened as a memref.
-/
import proofs.«138779_j80693845557675_2_alg».proof.Proof.Gen.Kernel.Launch
import proofs.«138779_j80693845557675_2_alg».proof.Proof.Gen.Kernel.Skeleton
import proofs.«138779_j80693845557675_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What core `c`'s buffers hold when the region is entered: the launch contents after the two reshapes of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the two lines before the region, the region, and the three lines after it: it reduces to the region
    continued by the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two reshapes leave the embeddings where the launch put them. -/
theorem V_main_arg0 (c : Dev nD) : V m c main_arg0 = m ((c : Thread nD τ).loc main_arg0) := by
  show StableHlo.after hostOps0 (fun b => m (c, b)) (Proc.devRef .tc main_arg0) = _
  first | (after_results; rfl) | rfl

/-- And the labels. -/
theorem V_main_arg1 (c : Dev nD) : V m c main_arg1 = m ((c : Thread nD τ).loc main_arg1) := by
  show StableHlo.after hostOps0 (fun b => m (c, b)) (Proc.devRef .tc main_arg1) = _
  first | (after_results; rfl) | rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- "The first point": both grid coordinates are zero (the body's scalar chain, substituted). -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem isFirst_iff : ∀ t : Fin cfg0.N, isFirst (grid0.coords t) ↔ t.val = 0 :=
  (by decide +kernel : ∀ t : Fin grid0.N, isFirst (grid0.coords t) ↔ t.val = 0)

/-- "The last point": both grid coordinates are seven. -/
abbrev isLast (i : grid0.Coords) : Prop := k0_cond2 i = 1#1
theorem isLast_iff : ∀ t : Fin cfg0.N, isLast (grid0.coords t) ↔ t.val = 63 :=
  (by decide +kernel : ∀ t : Fin grid0.N, isLast (grid0.coords t) ↔ t.val = 63)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
theorem live_in3 : ∀ t : Fin cfg0.N, cfg0.idle 3 (grid0.coords t) = false := by decide +kernel
/-- Away from the last point the body stores nothing into the output window, -/
theorem idle_out : ∀ t : Fin cfg0.N, ¬isLast (grid0.coords t) → cfg0.idle 4 (grid0.coords t) = true := by decide +kernel
/-- and the pipeline does not write it back there; -/
theorem noFlush_out : ∀ t : Fin cfg0.N, ¬isLast (grid0.coords t) → (cfg0.win 4).flush t = false := by decide +kernel
/-- at the last point it is live. -/
theorem live_out : ∀ t : Fin cfg0.N, isLast (grid0.coords t) → cfg0.idle 4 (grid0.coords t) = false := by decide +kernel

/-! ## The memrefs the body is called with -/

/-- One staging buffer of the output window, through which its contents are stated. -/
abbrev outView : View sig .tc .vmem S1x1 .f32 := (Memref.whole cc0_stg4_0 : Memref sig .tc .vmem S1x1 .f32).view
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The scratch that carries the running total between points. -/
abbrev accM : Memref sig .tc .vmem S1x1 .f32 := Memref.whole cc0_scratch0
abbrev accView : View sig .tc .vmem S1x1 .f32 := accM.view

/-- The class invariant with the scratch as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.WordRunFirst.lean ====
/-
  The body at the FIRST grid point: the running total is reset to zero, the tile's two masked sums are added to it and
  stored back; the output window is not touched. Run symbolically over the body's skeleton: the inputs' staging
  buffers are handed back as they were, the output's as it was, and the scratch ends holding the pieces the two
  stores wrote, last first.
-/
import proofs.«138779_j80693845557675_2_alg».proof.Proof.WordStage

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the scratch at the first point, with the run that finds them. -/
noncomputable def runFirst (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : isFirst i) (hc1 : ¬isLast i)
    (x0 : Vec F S512x1024 .f32) (x1 : Vec F S512x1024 .f32) (x2 : Vec F S512x1 .i32) (x3 : Vec F S1x512 .i32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, fun xo E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.WordRunMiddle.lean ====
/-
  The body at a MIDDLE grid point (neither the first nor the last): the tile's two masked sums are added to the running
  total the point before left in the scratch, and stored back; the output window is not touched.
-/
import proofs.«138779_j80693845557675_2_alg».proof.Proof.WordRunFirst

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's store leaves in the scratch at a middle point, over the total `xs` it found there. -/
noncomputable def runMiddle (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : ¬isLast i)
    (x0 : Vec F S512x1024 .f32) (x1 : Vec F S512x1024 .f32) (x2 : Vec F S512x1 .i32) (x3 : Vec F S1x512 .i32) (xs : Vec F S1x1 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, fun xo E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.WordRunLast.lean ====
/-
  The body at the LAST grid point: the tile's two masked sums are added to the running total the point before left in
  the scratch and stored back, and the total is then copied into the output window's staging buffer.
-/
import proofs.«138779_j80693845557675_2_alg».proof.Proof.WordRunMiddle

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output window's buffer and in the scratch at the last point, over the
    total `xs` it found in the scratch. -/
noncomputable def runLast (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : isLast i)
    (x0 : Vec F S512x1024 .f32) (x1 : Vec F S512x1024 .f32) (x2 : Vec F S512x1 .i32) (x3 : Vec F S1x512 .i32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.WordFound.lean ====
/-
  What the body's three runs leave behind, as values: the scratch after the first, a middle and the last point, and the
  output window's buffer after the last point — each the run's pieces read back over arbitrary contents, which is
  well defined because the pieces cover the [1,1] buffer.
-/
import proofs.«138779_j80693845557675_2_alg».proof.Proof.WordRunLast

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's pieces for the scratch cover it. -/
theorem cover_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : isFirst i) (hc1 : ¬isLast i)
    (x0 : Vec F S512x1024 .f32) (x1 : Vec F S512x1024 .f32) (x2 : Vec F S512x1 .i32) (x3 : Vec F S1x512 .i32) (y : S1x1.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S1x1.size (by sl_kernel_rfl) y

/-- What the first point leaves in the scratch. -/
def accFirst (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : isFirst i) (hc1 : ¬isLast i)
    (x0 : Vec F S512x1024 .f32) (x1 : Vec F S512x1024 .f32) (x2 : Vec F S512x1 .i32) (x3 : Vec F S1x512 .i32) : Vec F S1x1 .f32 :=
  accView.read (Elt F) (accView.writes (Elt F) accView.junk (runFirst c i arg2 harg2 arg3 harg3 arg4 harg4 arg5 harg5 arg6 harg6 arg7 harg7 hc0 hc1 x0 x1 x2 x3).1)

/-- A middle point's pieces for the scratch cover it. -/
theorem cover_middle (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : ¬isLast i)
    (x0 : Vec F S512x1024 .f32) (x1 : Vec F S512x1024 .f32) (x2 : Vec F S512x1 .i32) (x3 : Vec F S1x512 .i32) (xs : Vec F S1x1 .f32) (y : S1x1.Idx) :
    ∃ pc ∈ (runMiddle c i arg2 harg2 arg3 harg3 arg4 harg4 arg5 harg5 arg6 harg6 arg7 harg7 hc0 hc1 x0 x1 x2 x3 xs).1, y ∈ pc.1.set :=
  View.cover_of_tiledL (runMiddle c i arg2 harg2 arg3 harg3 arg4 harg4 arg5 harg5 arg6 harg6 arg7 harg7 hc0 hc1 x0 x1 x2 x3 xs).1 S1x1.size (by sl_kernel_rfl) y

/-- What a middle point leaves in the scratch, over the total `xs` it found there. -/
def accMiddle (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : ¬isLast i)
    (x0 : Vec F S512x1024 .f32) (x1 : Vec F S512x1024 .f32) (x2 : Vec F S512x1 .i32) (x3 : Vec F S1x512 .i32) (xs : Vec F S1x1 .f32) : Vec F S1x1 .f32 :=
  accView.read (Elt F) (accView.writes (Elt F) accView.junk (runMiddle c i arg2 harg2 arg3 harg3 arg4 harg4 arg5 harg5 arg6 harg6 arg7 harg7 hc0 hc1 x0 x1 x2 x3 xs).1)

/-- The last point's pieces for the output window's buffer cover it, -/
theorem cover_last_out (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : isLast i)
    (x0 : Vec F S512x1024 .f32) (x1 : Vec F S512x1024 .f32) (x2 : Vec F S512x1 .i32) (x3 : Vec F S1x512 .i32) (xs : Vec F S1x1 .f32) (y : S1x1.Idx) :
    ∃ pc ∈ (runLast c i arg2 harg2 arg3 harg3 arg4 harg4 arg5 harg5 arg6 harg6 arg7 harg7 hc0 hc1 x0 x1 x2 x3 xs).1, y ∈ pc.1.set :=
  View.cover_of_tiledL (runLast c i arg2 harg2 arg3 harg3 arg4 harg4 arg5 harg5 arg6 harg6 arg7 harg7 hc0 hc1 x0 x1 x2 x3 xs).1 S1x1.size (by sl_kernel_rfl) y

/-- and its pieces for the scratch cover that. -/
theorem cover_last_acc (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : isLast i)
    (x0 : Vec F S512x1024 .f32) (x1 : Vec F S512x1024 .f32) (x2 : Vec F S512x1 .i32) (x3 : Vec F S1x512 .i32) (xs : Vec F S1x1 .f32) (y : S1x1.Idx) :
    ∃ pc ∈ (runLast c i arg2 harg2 arg3 harg3 arg4 harg4 arg5 harg5 arg6 harg6 arg7 harg7 hc0 hc1 x0 x1 x2 x3 xs).2.1, y ∈ pc.1.set :=
  View.cover_of_tiledL (runLast c i arg2 harg2 arg3 harg3 arg4 harg4 arg5 harg5 arg6 harg6 arg7 harg7 hc0 hc1 x0 x1 x2 x3 xs).2.1 S1x1.size (by sl_kernel_rfl) y

/-- What the last point leaves in the output window's buffer, -/
def outLast (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : isLast i)
    (x0 : Vec F S512x1024 .f32) (x1 : Vec F S512x1024 .f32) (x2 : Vec F S512x1 .i32) (x3 : Vec F S1x512 .i32) (xs : Vec F S1x1 .f32) : Vec F S1x1 .f32 :=
  outView.read (Elt F) (outView.writes (Elt F) outView.junk (runLast c i arg2 harg2 arg3 harg3 arg4 harg4 arg5 harg5 arg6 harg6 arg7 harg7 hc0 hc1 x0 x1 x2 x3 xs).1)

/-- and in the scratch. -/
def accLast (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : isLast i)
    (x0 : Vec F S512x1024 .f32) (x1 : Vec F S512x1024 .f32) (x2 : Vec F S512x1 .i32) (x3 : Vec F S1x512 .i32) (xs : Vec F S1x1 .f32) : Vec F S1x1 .f32 :=
  accView.read (Elt F) (accView.writes (Elt F) accView.junk (runLast c i arg2 harg2 arg3 harg3 arg4 harg4 arg5 harg5 arg6 harg6 arg7 harg7 hc0 hc1 x0 x1 x2 x3 xs).2.1)

end Cert.Kernel.Hand

end
-- ==== Proof.WordAccum.lean ====
/-
  The running total point by point. After the body at grid position n the scratch holds what the point's case leaves
  there — the first point's value, or a later point's value over what position n - 1 left — and the output window's
  buffer holds the copied total at the last position (it is idle elsewhere). From this: the region invariant that
  tracks the scratch, the pipeline's proof data (each input window's buffer at its block; the two windows on the
  embeddings each holding one half of that array), and the body obligation at every point.
-/
import proofs.«138779_j80693845557675_2_alg».proof.Proof.WordFound

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's buffer where the body leaves it alone: contents nothing consults. -/
def idleOut : Vec F S1x1 .f32 := outView.read (Elt F) outView.junk

/-- THE ACCUMULATION: what the output window's buffer and the scratch hold after the body at position `n`. -/
def outsAt (c : Dev nD) : (n : ℕ) → n < cfg0.N → Vec F S1x1 .f32 × Vec F S1x1 .f32
  | 0, hn => (idleOut, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((isFirst_iff ⟨0, hn⟩).mpr rfl) (fun h => (show (0 : ℕ) ≠ 63 by decide) ((isLast_iff ⟨0, hn⟩).mp h)) (iblk m c 0 ⟨0, hn⟩) (iblk m c 1 ⟨0, hn⟩) (iblk m c 2 ⟨0, hn⟩) (iblk m c 3 ⟨0, hn⟩))
  | n + 1, hn =>
    if h1 : n + 1 = 63 then
      (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => Nat.succ_ne_zero n ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
       accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => Nat.succ_ne_zero n ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
    else
      (idleOut, accMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => Nat.succ_ne_zero n ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

/-- At the first point. -/
theorem outsAt_first (c : Dev nD) (t : Fin cfg0.N) (h0 : t.val = 0) (h1 : ¬t.val = 63) :
    outsAt m c t.val t.isLt = (idleOut, accFirst c (grid0.coords t) (ms0 t) (hs0 t) (ms1 t) (hs1 t) (ms2 t) (hs2 t) (ms3 t) (hs3 t) (ms4 t) (hs4 t) accM (Memref.isWhole_whole _) ((isFirst_iff t).mpr h0) (fun h => h1 ((isLast_iff t).mp h)) (iblk m c 0 t) (iblk m c 1 t) (iblk m c 2 t) (iblk m c 3 t)) := by
  obtain ⟨n, hn⟩ := t
  cases n with
  | zero => exact rfl
  | succ n => exact absurd h0 (Nat.succ_ne_zero n)

/-- At a middle point: over what the point before left. -/
theorem outsAt_middle (c : Dev nD) (t : Fin cfg0.N) (h0 : ¬t.val = 0) (h1 : ¬t.val = 63) :
    outsAt m c t.val t.isLt = (idleOut, accMiddle c (grid0.coords t) (ms0 t) (hs0 t) (ms1 t) (hs1 t) (ms2 t) (hs2 t) (ms3 t) (hs3 t) (ms4 t) (hs4 t) accM (Memref.isWhole_whole _) (fun h => h0 ((isFirst_iff t).mp h)) (fun h => h1 ((isLast_iff t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact absurd rfl h0
  | succ n => exact (dif_neg h1).trans rfl

/-- At the last point: over what the point before left. -/
theorem outsAt_last (c : Dev nD) (t : Fin cfg0.N) (h0 : ¬t.val = 0) (h1 : t.val = 63) :
    outsAt m c t.val t.isLt = (outLast c (grid0.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h1) (iblk m c 0 t) (iblk m c 1 t) (iblk m c 2 t) (iblk m c 3 t) (outsAt m c (t.val - 1) (Nat.lt_of_le_of_lt (Nat.sub_le _ _) t.isLt)).2,
      accLast c (grid0.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h1) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the scratch at anything; afterwards at what the
    point before left in it; the generator register at some state throughout. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The pipeline's proof data -/

/-- The share each window holds of its array: the two windows on the embeddings hold the two halves of that array. -/
def qShare : Fin cfg0.W → PosShare TreeShare := fun w => if w = 0 then fullShare.left else if w = 1 then fullShare.right else fullShare

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q := qShare
  owed _ := 0

theorem A_eq (c : Dev nD) (w : Fin cfg0.W) : (dats m 0 c).A w = V m c (Pipeline.arrRef spec0 w) := by
  dsimp only [dats]

theorem q_eq (c : Dev nD) : (dats m 0 c).q = qShare := rfl

theorem PhiS_castSucc (c : Dev nD) (t : Fin cfg0.N) :
    (dats m 0 c).Φ t.castSucc = PhiS m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_out (c : Dev nD) (t : Fin cfg0.N) : (dats m 0 c).after 4 t = (outsAt m c t.val t.isLt).1 := by dsimp only [dats]

/-- Each input window's current staging buffer holds its block at every point, fetched there or not. -/
theorem before_in0 (c : Dev nD) (t : Fin cfg0.N) (d) : (dats m 0 c).before 0 t d = iblk m c 0 t :=
  ((dats m 0 c).before_in_eq_fetched 0 rfl (fun _ => rfl) (fun _ _ _ => rfl) (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl) (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl) (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl) (fun t => by rw [after_in3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0 t) fullShare (iblk m c 0 t) := by
  rw [← after_in0]
theorem leaves_in1 (c : Dev nD) (t : Fin cfg0.N) : (dats m 0 c).leavesExact 1 t = owns (c : Thread nD τ) (ms1 t) fullShare (iblk m c 1 t) := by
  rw [← after_in1]
theorem leaves_in2 (c : Dev nD) (t : Fin cfg0.N) : (dats m 0 c).leavesExact 2 t = owns (c : Thread nD τ) (ms2 t) fullShare (iblk m c 2 t) := by
  rw [← after_in2]
theorem leaves_in3 (c : Dev nD) (t : Fin cfg0.N) : (dats m 0 c).leavesExact 3 t = owns (c : Thread nD τ) (ms3 t) fullShare (iblk m c 3 t) := by
  rw [← after_in3]

set_option maxHeartbeats 4800000 in
/-- The body at any point: the inputs' buffers hold their blocks; the closed forms say which case the point is in; the
    invariant hands the body the scratch at what the point before left (at anything at the first point) and takes it back
    at this point's value; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 64 := lt_of_lt_of_eq t.isLt (show cfg0.N = 64 from N_0)
  by_cases h0 : t.val = 0
  · have h1 : ¬t.val = 63 := by omega
    have hnl : ¬isLast (grid0.coords t) := fun h => h1 ((isLast_iff t).mp h)
    rw [Dat.leavesExact_idle (dats m 0 c) 4 t (idle_out t hnl) (noFlush_out t hnl)]
    rw [outsAt_first m c t h0 h1]
    unfold accFirst; (try dsimp only)
    rw [PhiS_castSucc m c t, PhiS_zero m c _ _ h0, PhiA_eq]
    iintro ⟨⟨HS, Hg⟩, Ho, ⟨%d0, H0⟩, ⟨%d1, H1⟩, ⟨%d2, H2⟩, ⟨%d3, H3⟩, ⟨%d4, H4⟩⟩
    iapply ((runFirst c (grid0.coords t) _ _ _ _ _ _ _ _ _ _ _ _ ((isFirst_iff t).mpr h0) hnl (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hg]
    · isplitl [HS]
      · unfold owns; iexists _; isplitr
        swap; · iexact HS
        ipureintro; exact View.read_writes_of_cover _ _ _ _ _ (cover_first c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 63
    · have hl : isLast (grid0.coords t) := (isLast_iff t).mpr h1
      rw [show (dats m 0 c).leavesExact 4 t = owns (c : Thread nD τ) (ms4 t) fullShare ((dats m 0 c).after 4 t) from by
        unfold Dat.leavesExact; rw [live_out t hl], after_out]
      rw [outsAt_last m c t h0 h1]
      unfold outLast accLast; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((isFirst_iff t).mp h)) hl (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (cover_last_acc c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_last_out c _ _ _ _ _ _ _ _ _ _ _ _ _ _ _ _ _ _ _ _)
    · have hnl : ¬isLast (grid0.coords t) := fun h => h1 ((isLast_iff t).mp h)
      rw [Dat.leavesExact_idle (dats m 0 c) 4 t (idle_out t hnl) (noFlush_out t hnl)]
      rw [outsAt_middle m c t h0 h1]
      unfold accMiddle; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩⟩
      iapply ((runMiddle c (grid0.coords t) _ _ _ _ _ _ _ _ _ _ _ _ (fun h => h0 ((isFirst_iff t).mp h)) hnl (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (cover_middle c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.WordSharedLaunch.lean ====
/-
  The launch. Two of the pipeline's windows read the same array (the embeddings, by row block and by column block), so
  the array's buffer is split between them: each window holds one half of the full share for the whole region, and the
  halves are joined again when the region ends. After the region the three host lines (reshape the [1,1] total to a
  scalar, the constant 4096, the quotient) run holding every unscoped buffer of the core whole, at the region's exit
  contents: the entry contents with the output array replaced by what the last point wrote back. The run's post names
  every array of the pipeline and every other unscoped buffer after those lines.
-/
import proofs.«138779_j80693845557675_2_alg».proof.Proof.WordAccum

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (chain)

/-! ## The windows' arrays against the four buffers behind them -/

theorem arrImage : Finset.univ.image (Pipeline.arrRef spec0) = [main_arg0, main_v0, main_v1, main_v2].toFinset := by decide

section Shares
variable {c : Dev nD} (dat : Dat τ (Elt F) Unit ℕ (UR sig nD τ) ℕ cfg0 c) (hq : dat.q = qShare)
include hq

theorem share0 : dat.share 0 = fullShare.left := by unfold Dat.share; rw [hq]; rfl
theorem share1 : dat.share 1 = fullShare.right := by unfold Dat.share; rw [hq]; rfl
theorem share2 : dat.share 2 = fullShare := by unfold Dat.share; rw [hq]; rfl
theorem share3 : dat.share 3 = fullShare := by unfold Dat.share; rw [hq]; rfl
omit hq in
theorem share4 : dat.share 4 = fullShare := by unfold Dat.share; rfl

/-- The windows' arrays, window by window, are the four distinct buffers behind them, each whole: the embeddings' buffer
    is the two halves the two windows on it hold. -/
theorem arrays_iff (F0 : Buf (Elt F) ((c : Thread nD τ).loc main_arg0)) (F2 : Buf (Elt F) ((c : Thread nD τ).loc main_v0))
    (F3 : Buf (Elt F) ((c : Thread nD τ).loc main_v1)) (F4 : Buf (Elt F) ((c : Thread nD τ).loc main_v2)) :
    (dat.arrays ((fun w => match w with | ⟨0, _⟩ => F0 | ⟨1, _⟩ => F0 | ⟨2, _⟩ => F2 | ⟨3, _⟩ => F3 | ⟨4, _⟩ => F4) : (w : Fin cfg0.W) → Buf (Elt F) ((cfg0.win w).arr.view.loc (c : Thread nD τ))) : sProp 𝕄)
      ⊣⊢ iprop((((c : Thread nD τ).loc main_arg0) ↦{fullShare} F0) ∗ (((c : Thread nD τ).loc main_v0) ↦{fullShare} F2)
          ∗ (((c : Thread nD τ).loc main_v1) ↦{fullShare} F3) ∗ (((c : Thread nD τ).loc main_v2) ↦{fullShare} F4)) := by
  unfold Dat.arrays
  rw [bigSep_W0, share0 dat hq, share1 dat hq, share2 dat hq, share3 dat hq, share4 dat]
  have e0 : ((cfg0.win 0).arr.view.set) = Finset.univ := (arr_whole0 0).set_eq_univ
  have e1 : ((cfg0.win 1).arr.view.set) = Finset.univ := (arr_whole0 1).set_eq_univ
  have e2 : ((cfg0.win 2).arr.view.set) = Finset.univ := (arr_whole0 2).set_eq_univ
  have e3 : ((cfg0.win 3).arr.view.set) = Finset.univ := (arr_whole0 3).set_eq_univ
  have e4 : ((cfg0.win 4).arr.view.set) = Finset.univ := (arr_whole0 4).set_eq_univ
  rw [e0]; (try rw [e1]); (try rw [e2]); (try rw [e3]); (try rw [e4])
  dsimp only
  constructor
  · iintro ⟨Hl, Hr, H2, H3, H4⟩
    isplitl [Hl Hr]
    · iapply (pointsTo_share (PosShare.mem_left_op_right fullShare)).2
      isplitl [Hl]; · iexact Hl
      iexact Hr
    isplitl [H2]; · iexact H2
    isplitl [H3]; · iexact H3
    iexact H4
  · iintro ⟨Ha, H2, H3, H4⟩
    ihave Hs := (pointsTo_share (PosShare.mem_left_op_right fullShare)).1 $$ Ha
    icases Hs with ⟨Hl, Hr⟩
    isplitl [Hl]; · iexact Hl
    isplitl [Hr]; · iexact Hr
    isplitl [H2]; · iexact H2
    isplitl [H3]; · iexact H3
    iexact H4

/-- The same as an equation. -/
theorem arrays_eq4 (F0 : Buf (Elt F) ((c : Thread nD τ).loc main_arg0)) (F2 : Buf (Elt F) ((c : Thread nD τ).loc main_v0))
    (F3 : Buf (Elt F) ((c : Thread nD τ).loc main_v1)) (F4 : Buf (Elt F) ((c : Thread nD τ).loc main_v2)) :
    (dat.arrays ((fun w => match w with | ⟨0, _⟩ => F0 | ⟨1, _⟩ => F0 | ⟨2, _⟩ => F2 | ⟨3, _⟩ => F3 | ⟨4, _⟩ => F4) : (w : Fin cfg0.W) → Buf (Elt F) ((cfg0.win w).arr.view.loc (c : Thread nD τ))) : sProp 𝕄)
      = iprop((((c : Thread nD τ).loc main_arg0) ↦{fullShare} F0) ∗ (((c : Thread nD τ).loc main_v0) ↦{fullShare} F2)
          ∗ (((c : Thread nD τ).loc main_v1) ↦{fullShare} F3) ∗ (((c : Thread nD τ).loc main_v2) ↦{fullShare} F4)) :=
  (arrays_iff dat hq F0 F2 F3 F4).1.antisymm (arrays_iff dat hq F0 F2 F3 F4).2
end Shares

/-- The distinct buffers behind the windows' arrays, one by one. -/
theorem arrBufs_eq4 (c : Dev nD) (G : (b : Ref sig .tc) → Buf (Elt F) ((c : Thread nD τ).loc b)) :
    (Pipeline.arrBufs spec0 c G : sProp 𝕄) = iprop((((c : Thread nD τ).loc main_arg0) ↦{fullShare} G main_arg0) ∗ (((c : Thread nD τ).loc main_v0) ↦{fullShare} G main_v0)
          ∗ (((c : Thread nD τ).loc main_v1) ↦{fullShare} G main_v1) ∗ (((c : Thread nD τ).loc main_v2) ↦{fullShare} G main_v2)) := by
  unfold Pipeline.arrBufs
  rw [bigSep_eq_bigSepL_of_eq [main_arg0, main_v0, main_v1, main_v2] arrImage (by decide)]
  simp only [bigSepL_cons_cons, bigSepL_singleton]
  rfl

/-- Every unscoped buffer of the core held at a valuation: the four buffers behind the arrays, and the rest. -/
theorem held_split (c : Dev nD) (W : Valuation τ sig (Elt F)) :
    (StableHlo.held (c : Thread nD τ) (Pipeline.ucRefs τ sig) W : sProp 𝕄)
      = iprop(iprop((((c : Thread nD τ).loc main_arg0) ↦{fullShare} W (Proc.devRef .tc main_arg0)) ∗ (((c : Thread nD τ).loc main_v0) ↦{fullShare} W (Proc.devRef .tc main_v0))
          ∗ (((c : Thread nD τ).loc main_v1) ↦{fullShare} W (Proc.devRef .tc main_v1)) ∗ (((c : Thread nD τ).loc main_v2) ↦{fullShare} W (Proc.devRef .tc main_v2)))
          ∗ Pipeline.unscopedRest spec0 c (fun b => W (Proc.devRef .tc b))) := by
  rw [← Pipeline.unscopedBufs_held c W, Pipeline.unscopedBufs_split₀ cfgs 0 winFacts₀0.arr_unscoped c, arrBufs_eq4]

/-! ## Entry -/

/-- The arrays at the region's entry, window by window. -/
theorem entry_arrays (c : Dev nD) : (fun w => (dats m 0 c).arrAt w 0)
    = ((fun w => match w with | ⟨0, _⟩ => V m c main_arg0 | ⟨1, _⟩ => V m c main_arg0 | ⟨2, _⟩ => V m c main_v0 | ⟨3, _⟩ => V m c main_v1 | ⟨4, _⟩ => V m c main_v2) : (w : Fin cfg0.W) → Buf (Elt F) ((cfg0.win w).arr.view.loc (c : Thread nD τ))) := by
  funext w
  show (dats m 0 c).A w = _
  rw [A_eq]
  fin_cases w <;> rfl

/-- The launch's buffers behind the arrays make the pipeline's arrays at entry: the embeddings' buffer is split in two. -/
theorem hsplit (c : Dev nD) : (Pipeline.arrBufs spec0 c (V m c) : sProp 𝕄) ⊢ (dats m 0 c).arrays ((dats m 0 c).arrAt · 0) := by
  rw [show ((dats m 0 c).arrAt · 0) = _ from entry_arrays m c, arrays_eq4 (dats m 0 c) (q_eq m c), arrBufs_eq4]

/-! ## Exit, and the lines after the region -/

/-- What the output array holds when the region ends. -/
def outFinal (c : Dev nD) : Buf (Elt F) ((c : Thread nD τ).loc main_v2) := (dats m 0 c).arrAt 4 cfg0.N

/-- The arrays at the region's exit, window by window: the inputs unchanged, the output written back. -/
theorem exit_arrays (c : Dev nD) : (fun w => (dats m 0 c).arrAt w cfg0.N)
    = ((fun w => match w with | ⟨0, _⟩ => V m c main_arg0 | ⟨1, _⟩ => V m c main_arg0 | ⟨2, _⟩ => V m c main_v0 | ⟨3, _⟩ => V m c main_v1 | ⟨4, _⟩ => outFinal m c) : (w : Fin cfg0.W) → Buf (Elt F) ((cfg0.win w).arr.view.loc (c : Thread nD τ))) := by
  funext w
  fin_cases w
  · exact ((dats m 0 c).arrAt_in _ rfl _).trans (A_eq m c _)
  · exact ((dats m 0 c).arrAt_in _ rfl _).trans (A_eq m c _)
  · exact ((dats m 0 c).arrAt_in _ rfl _).trans (A_eq m c _)
  · exact ((dats m 0 c).arrAt_in _ rfl _).trans (A_eq m c _)
  · rfl

/-- The core's buffers at the region's exit: the entry contents with the output array as the region left it. -/
def Wexit (c : Dev nD) : Valuation τ sig (Elt F) := Function.update (V0 m c) (Proc.devRef .tc main_v2) (outFinal m c)

theorem Wexit_out (c : Dev nD) : Wexit m c (Proc.devRef .tc main_v2) = outFinal m c := Function.update_self ..
theorem Wexit_of_ne (c : Dev nD) (b : Ref sig .tc) (hb : b ≠ main_v2) : Wexit m c (Proc.devRef .tc b) = V m c b :=
  Function.update_of_ne (StableHlo.devRef_ne_of_ne hb) ..

/-- And after the three lines that follow the region. -/
def Wend (c : Dev nD) : Valuation τ sig (Elt F) := StableHlo.after hostOps1 (Wexit m c)
/-- The same read at a TensorCore reference. -/
def Vend (c : Dev nD) (b : Ref sig .tc) : Buf (Elt F) ((c : Thread nD τ).loc b) := Wend m c (Proc.devRef .tc b)

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The three lines write none of the pipeline's arrays. -/
theorem tail_keeps (b : Ref sig .tc) (hb : b = main_arg0 ∨ b = main_v0 ∨ b = main_v1 ∨ b = main_v2) :
    ∀ op ∈ (hostOps1 : List (HloOp τ sig (Elt F))), Proc.devRef .tc b ∉ op.writes := by
  intro op hop
  simp only [hostOps1, List.mem_cons, List.mem_nil_iff, or_false] at hop
  rcases hb with rfl | rfl | rfl | rfl <;> rcases hop with rfl | rfl | rfl <;>
    simp only [StableHlo.nullary_writes, StableHlo.unary_writes, StableHlo.binary_writes, StableHlo.reshape_writes, Finset.mem_singleton] <;>
    exact StableHlo.devRef_ne_of_ne (by decide)

/-- What the region's exit holds is every unscoped buffer at `Wexit`. -/
theorem exit_held (c : Dev nD) :
    (iprop((dats m 0 c).arrays ((dats m 0 c).arrAt · cfg0.N) ∗ Pipeline.unscopedRest spec0 c (V m c)) : sProp 𝕄)
      = StableHlo.held (c : Thread nD τ) (Pipeline.ucRefs τ sig) (Wexit m c) := by
  rw [show ((dats m 0 c).arrAt · cfg0.N) = _ from exit_arrays m c, arrays_eq4 (dats m 0 c) (q_eq m c), held_split,
    Wexit_out, Wexit_of_ne m c main_arg0 (by decide), Wexit_of_ne m c main_v0 (by decide), Wexit_of_ne m c main_v1 (by decide)]
  congr 1

/-- And after the lines, the same at `Wend`: the arrays as the region left them. -/
theorem end_held (c : Dev nD) :
    (iprop((dats m 0 c).arrays ((dats m 0 c).arrAt · cfg0.N) ∗ Pipeline.unscopedRest spec0 c (Vend m c)) : sProp 𝕄)
      = StableHlo.held (c : Thread nD τ) (Pipeline.ucRefs τ sig) (Wend m c) := by
  have k0 : Wend m c (Proc.devRef .tc main_arg0) = V m c main_arg0 :=
    (StableHlo.after_of_forall_not_mem _ _ (tail_keeps main_arg0 (.inl rfl))).trans (Wexit_of_ne m c main_arg0 (by decide))
  have k2 : Wend m c (Proc.devRef .tc main_v0) = V m c main_v0 :=
    (StableHlo.after_of_forall_not_mem _ _ (tail_keeps main_v0 (.inr (.inl rfl)))).trans (Wexit_of_ne m c main_v0 (by decide))
  have k3 : Wend m c (Proc.devRef .tc main_v1) = V m c main_v1 :=
    (StableHlo.after_of_forall_not_mem _ _ (tail_keeps main_v1 (.inr (.inr (.inl rfl))))).trans (Wexit_of_ne m c main_v1 (by decide))
  have k4 : Wend m c (Proc.devRef .tc main_v2) = outFinal m c :=
    (StableHlo.after_of_forall_not_mem _ _ (tail_keeps main_v2 (.inr (.inr (.inr rfl))))).trans (Wexit_out m c)
  rw [show ((dats m 0 c).arrAt · cfg0.N) = _ from exit_arrays m c, arrays_eq4 (dats m 0 c) (q_eq m c), held_split, k0, k2, k3, k4]
  rfl

set_option backward.isDefEq.respectTransparency.types false in
/-- THE LINES AFTER THE REGION: from the region's exit they run holding every unscoped buffer, and hand back the arrays as
    the region left them and the other buffers at `Vend`. -/
theorem htail (c : Dev nD) (Q' : PUnit → sProp 𝕄) :
    iprop((iprop((dats m 0 c).arrays ((dats m 0 c).arrAt · cfg0.N) ∗ Pipeline.unscopedRest spec0 c (Vend m c)) -∗ Q' ⟨⟩)
        ∗ boundary (c : Thread nD τ) ∗ (dats m 0 c).arrays ((dats m 0 c).arrAt · cfg0.N) ∗ Pipeline.unscopedRest spec0 c (V m c))
      ⊢ wp frame (wpE (defs (F := F)) (Variants.lift Variants.none) (c : Thread nD τ) none) Set.univ (chain [StableHlo.seq hostOps1]) Q' := by
  rw [exit_held, end_held]
  show _ ⊢ wp frame _ Set.univ (chain (([hostOps1] : List (List (HloOp τ sig (Elt F)))).map StableHlo.seq ++ [])) Q'
  iintro ⟨Hk, Hb⟩
  iapply (Pipeline.wp_seqs_then (fun q => (cfgs q).toPCfg (Val := Elt F)) defs₀ Variants.none c (Pipeline.ucRefs τ sig) [] [hostOps1] tail_sub tail_fresh (Wexit m c)) $$ Hb
  iintro Hb
  rw [Pipeline.chain_nil, wp_pure]
  imodintro
  iapply Hk
  icases Hb with ⟨-, H⟩
  iexact H

/-! ## The run -/

set_option backward.isDefEq.respectTransparency.types false in
/-- From any memory with zero counters every weakly fair execution of the program terminates, and every final state has
    each array of the pipeline at what the write-backs leave and every other unscoped buffer as the three lines after
    the region leave it. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = Vend m c b) := by
  classical
  exact Pipeline.θ_run_region_pf_tail (fun q => (cfgs q).toPCfg (Val := Elt F)) (fun q => (cfgs q).toPCfg_adm) (dats m) () cellOf_inj 0 winFacts₀0
    (Pipeline.OwnSemFacts.none spec0) (Pipeline.PreFacts.none _) emb₁ defs₀ Variants.none m ρ main
    (fun _ => chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vend m c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefs sig spec0, s.mem ((c.tc : Thread nD τ).loc b) = Vend m c b)
    (hY := fun c s' => by
      iintro ⟨-, HU, HSI⟩
      unfold Pipeline.unscopedRest
      imodintro
      iapply (pointsTo_read_all (Pipeline.restRefs sig spec0) (fun b => (c.tc : Thread nD τ).loc b) (Vend m c) s')
      isplitl [HU] <;> iassumption)
    (hQ := fun s h c => ⟨(h c).1, (h c).2.2⟩)

end Cert.Kernel.Hand

end
-- ==== Proof.WordResult.lean ====
/-
  What the run leaves in the program's own buffers. The two argument arrays end as they began: the embeddings are an
  input array of the pipeline, which no write-back touches, and the labels bypass the region and are written by none
  of the lines after it. The result buffer ends at the quotient of the output array's one entry, reshaped to a scalar,
  by the constant 4096.
-/
import proofs.«138779_j80693845557675_2_alg».proof.Proof.WordSharedLaunch

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three lines after the region write only their own results. -/
theorem tail_writes (b : Ref sig .tc) (h3 : b ≠ main_v3) (hc : b ≠ main_cst) (h4 : b ≠ main_v4) :
    ∀ op ∈ (hostOps1 : List (HloOp τ sig (Elt F))), Proc.devRef .tc b ∉ op.writes := by
  intro op hop
  simp only [hostOps1, List.mem_cons, List.mem_nil_iff, or_false] at hop
  rcases hop with rfl | rfl | rfl
  · simp only [StableHlo.reshape_writes, Finset.mem_singleton]; exact StableHlo.devRef_ne_of_ne h3
  · simp only [StableHlo.nullary_writes, Finset.mem_singleton]; exact StableHlo.devRef_ne_of_ne hc
  · simp only [StableHlo.binary_writes, Finset.mem_singleton]; exact StableHlo.devRef_ne_of_ne h4

/-- The labels after the lines are the launch's. -/
theorem Vend_labels (c : Dev nD) : Vend m c main_arg1 = m ((c : Thread nD τ).loc main_arg1) :=
  ((StableHlo.after_of_forall_not_mem _ _ (tail_writes main_arg1 (by decide) (by decide) (by decide))).trans
    (Wexit_of_ne m c main_arg1 (by decide))).trans (V_main_arg1 m c)

/-- The result buffer after the lines: the output array's contents reshaped to a scalar, over the constant 4096. -/
theorem Vend_result (c : Dev nD) :
    Vend m c main_v4 = Host.divf (shapeCast S_ (outFinal m c) shapeCasts_S1x1_S_) (constant S_ .f32 0x45800000#32) := by
  show StableHlo.after hostOps1 (Wexit m c) (Proc.devRef .tc main_v4) = _
  after_results
  rw [Wexit_out]
  rfl

theorem labels_rest : main_arg1 ∈ Pipeline.restRefs sig spec0 :=
  Pipeline.mem_restRefs_of main_arg1 rfl (by decide)
theorem result_rest : main_v4 ∈ Pipeline.restRefs sig spec0 :=
  Pipeline.mem_restRefs_of main_v4 rfl (by decide)

/-- The run, read at the program's arguments and result. -/
theorem run_result : θ_run defs (onTc (τ := τ) (main (F := F))) ⟨m, fun _ => 0, ρ⟩ (fun r => ∀ c : Dev nD,
      r.2.mem ((c.tc : Thread nD τ).loc main_v4) = Host.divf (shapeCast S_ (outFinal m c) shapeCasts_S1x1_S_) (constant S_ .f32 0x45800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v4 result_rest).trans (Vend_result m c),
      ((h c).1 0).trans ((((dats m 0 c).arrAt_in 0 rfl _).trans (A_eq m c 0)).trans (V_main_arg0 m c)),
      ((h c).2 main_arg1 labels_rest).trans (Vend_labels m c)⟩) (run_main m ρ)

/-- THE FRAME: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1, (h c).2.2⟩) (run_result m ρ)

end Cert.Kernel.Hand

end
-- ==== Proof.Stage.lean ====
/-
  The pairwise-similarity kernel runs an 8 x 8 grid of 512 x 512 tiles of x xᵀ. This module fixes the vocabulary the
  three runs of its body share: what the core's buffers hold when the region is entered (the class labels reshaped
  to a column and to a row by the two host lines before it), the program as those lines, the region and the three
  lines after it, the block of each input window at a grid point, the two conditions of the body — "this is the
  first point" (the running total is reset) and "this is the last point" (the total is copied to the output) — in
  closed form over the 64 points, where the output window is idle, and the region invariant with the [1,1] scratch
  that carries the running total opened as a memref.
-/
import proofs.«138779_j80693845557675_2_alg».proof.Proof.Gen.KernelIdeal.Launch
import proofs.«138779_j80693845557675_2_alg».proof.Proof.Gen.KernelIdeal.Skeleton
import proofs.«138779_j80693845557675_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What core `c`'s buffers hold when the region is entered: the launch contents after the two reshapes of the labels. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the two lines before the region, the region, and the three lines after it: it reduces to the region
    continued by the later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The two reshapes leave the embeddings where the launch put them. -/
theorem V_main_arg0 (c : Dev nD) : V m c main_arg0 = m ((c : Thread nD τ).loc main_arg0) := by
  show StableHlo.after hostOps0 (fun b => m (c, b)) (Proc.devRef .tc main_arg0) = _
  first | (after_results; rfl) | rfl

/-- And the labels. -/
theorem V_main_arg1 (c : Dev nD) : V m c main_arg1 = m ((c : Thread nD τ).loc main_arg1) := by
  show StableHlo.after hostOps0 (fun b => m (c, b)) (Proc.devRef .tc main_arg1) = _
  first | (after_results; rfl) | rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- "The first point": both grid coordinates are zero (the body's scalar chain, substituted). -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem isFirst_iff : ∀ t : Fin cfg0.N, isFirst (grid0.coords t) ↔ t.val = 0 :=
  (by decide +kernel : ∀ t : Fin grid0.N, isFirst (grid0.coords t) ↔ t.val = 0)

/-- "The last point": both grid coordinates are seven. -/
abbrev isLast (i : grid0.Coords) : Prop := k0_cond2 i = 1#1
theorem isLast_iff : ∀ t : Fin cfg0.N, isLast (grid0.coords t) ↔ t.val = 63 :=
  (by decide +kernel : ∀ t : Fin grid0.N, isLast (grid0.coords t) ↔ t.val = 63)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
theorem live_in3 : ∀ t : Fin cfg0.N, cfg0.idle 3 (grid0.coords t) = false := by decide +kernel
/-- Away from the last point the body stores nothing into the output window, -/
theorem idle_out : ∀ t : Fin cfg0.N, ¬isLast (grid0.coords t) → cfg0.idle 4 (grid0.coords t) = true := by decide +kernel
/-- and the pipeline does not write it back there; -/
theorem noFlush_out : ∀ t : Fin cfg0.N, ¬isLast (grid0.coords t) → (cfg0.win 4).flush t = false := by decide +kernel
/-- at the last point it is live. -/
theorem live_out : ∀ t : Fin cfg0.N, isLast (grid0.coords t) → cfg0.idle 4 (grid0.coords t) = false := by decide +kernel

/-! ## The memrefs the body is called with -/

/-- One staging buffer of the output window, through which its contents are stated. -/
abbrev outView : View sig .tc .vmem S1x1 .f32 := (Memref.whole cc0_stg4_0 : Memref sig .tc .vmem S1x1 .f32).view
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The scratch that carries the running total between points. -/
abbrev accM : Memref sig .tc .vmem S1x1 .f32 := Memref.whole cc0_scratch0
abbrev accView : View sig .tc .vmem S1x1 .f32 := accM.view

/-- The class invariant with the scratch as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.RunFirst.lean ====
/-
  The body at the FIRST grid point: the running total is reset to zero, the tile's two masked sums are added to it and
  stored back; the output window is not touched. Run symbolically over the body's skeleton: the inputs' staging
  buffers are handed back as they were, the output's as it was, and the scratch ends holding the pieces the two
  stores wrote, last first.
-/
import proofs.«138779_j80693845557675_2_alg».proof.Proof.Stage

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the scratch at the first point, with the run that finds them. -/
noncomputable def runFirst (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : isFirst i) (hc1 : ¬isLast i)
    (x0 : Vec F S512x1024 .f32) (x1 : Vec F S512x1024 .f32) (x2 : Vec F S512x1 .i32) (x3 : Vec F S1x512 .i32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, fun xo E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.RunMiddle.lean ====
/-
  The body at a MIDDLE grid point (neither the first nor the last): the tile's two masked sums are added to the running
  total the point before left in the scratch, and stored back; the output window is not touched.
-/
import proofs.«138779_j80693845557675_2_alg».proof.Proof.RunFirst

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's store leaves in the scratch at a middle point, over the total `xs` it found there. -/
noncomputable def runMiddle (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : ¬isLast i)
    (x0 : Vec F S512x1024 .f32) (x1 : Vec F S512x1024 .f32) (x2 : Vec F S512x1 .i32) (x3 : Vec F S1x512 .i32) (xs : Vec F S1x1 .f32) :
    { LS : List (View.Piece (Elt F) S1x1 .f32) //
      ∀ (xo : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, fun xo E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.RunLast.lean ====
/-
  The body at the LAST grid point: the tile's two masked sums are added to the running total the point before left in
  the scratch and stored back, and the total is then copied into the output window's staging buffer.
-/
import proofs.«138779_j80693845557675_2_alg».proof.Proof.RunMiddle

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output window's buffer and in the scratch at the last point, over the
    total `xs` it found in the scratch. -/
noncomputable def runLast (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : isLast i)
    (x0 : Vec F S512x1024 .f32) (x1 : Vec F S512x1024 .f32) (x2 : Vec F S512x1 .i32) (x3 : Vec F S1x512 .i32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7) K } := by
  refine ⟨?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.Found.lean ====
/-
  What the body's three runs leave behind, as values: the scratch after the first, a middle and the last point, and the
  output window's buffer after the last point — each the run's pieces read back over arbitrary contents, which is
  well defined because the pieces cover the [1,1] buffer.
-/
import proofs.«138779_j80693845557675_2_alg».proof.Proof.RunLast

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's pieces for the scratch cover it. -/
theorem cover_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : isFirst i) (hc1 : ¬isLast i)
    (x0 : Vec F S512x1024 .f32) (x1 : Vec F S512x1024 .f32) (x2 : Vec F S512x1 .i32) (x3 : Vec F S1x512 .i32) (y : S1x1.Idx) :
    ∃ pc ∈ (runFirst c i arg2 harg2 arg3 harg3 arg4 harg4 arg5 harg5 arg6 harg6 arg7 harg7 hc0 hc1 x0 x1 x2 x3).1, y ∈ pc.1.set :=
  View.cover_of_tiledL (runFirst c i arg2 harg2 arg3 harg3 arg4 harg4 arg5 harg5 arg6 harg6 arg7 harg7 hc0 hc1 x0 x1 x2 x3).1 S1x1.size (by sl_kernel_rfl) y

/-- What the first point leaves in the scratch. -/
def accFirst (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : isFirst i) (hc1 : ¬isLast i)
    (x0 : Vec F S512x1024 .f32) (x1 : Vec F S512x1024 .f32) (x2 : Vec F S512x1 .i32) (x3 : Vec F S1x512 .i32) : Vec F S1x1 .f32 :=
  accView.read (Elt F) (accView.writes (Elt F) accView.junk (runFirst c i arg2 harg2 arg3 harg3 arg4 harg4 arg5 harg5 arg6 harg6 arg7 harg7 hc0 hc1 x0 x1 x2 x3).1)

/-- A middle point's pieces for the scratch cover it. -/
theorem cover_middle (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : ¬isLast i)
    (x0 : Vec F S512x1024 .f32) (x1 : Vec F S512x1024 .f32) (x2 : Vec F S512x1 .i32) (x3 : Vec F S1x512 .i32) (xs : Vec F S1x1 .f32) (y : S1x1.Idx) :
    ∃ pc ∈ (runMiddle c i arg2 harg2 arg3 harg3 arg4 harg4 arg5 harg5 arg6 harg6 arg7 harg7 hc0 hc1 x0 x1 x2 x3 xs).1, y ∈ pc.1.set :=
  View.cover_of_tiledL (runMiddle c i arg2 harg2 arg3 harg3 arg4 harg4 arg5 harg5 arg6 harg6 arg7 harg7 hc0 hc1 x0 x1 x2 x3 xs).1 S1x1.size (by sl_kernel_rfl) y

/-- What a middle point leaves in the scratch, over the total `xs` it found there. -/
def accMiddle (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : ¬isLast i)
    (x0 : Vec F S512x1024 .f32) (x1 : Vec F S512x1024 .f32) (x2 : Vec F S512x1 .i32) (x3 : Vec F S1x512 .i32) (xs : Vec F S1x1 .f32) : Vec F S1x1 .f32 :=
  accView.read (Elt F) (accView.writes (Elt F) accView.junk (runMiddle c i arg2 harg2 arg3 harg3 arg4 harg4 arg5 harg5 arg6 harg6 arg7 harg7 hc0 hc1 x0 x1 x2 x3 xs).1)

/-- The last point's pieces for the output window's buffer cover it, -/
theorem cover_last_out (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : isLast i)
    (x0 : Vec F S512x1024 .f32) (x1 : Vec F S512x1024 .f32) (x2 : Vec F S512x1 .i32) (x3 : Vec F S1x512 .i32) (xs : Vec F S1x1 .f32) (y : S1x1.Idx) :
    ∃ pc ∈ (runLast c i arg2 harg2 arg3 harg3 arg4 harg4 arg5 harg5 arg6 harg6 arg7 harg7 hc0 hc1 x0 x1 x2 x3 xs).1, y ∈ pc.1.set :=
  View.cover_of_tiledL (runLast c i arg2 harg2 arg3 harg3 arg4 harg4 arg5 harg5 arg6 harg6 arg7 harg7 hc0 hc1 x0 x1 x2 x3 xs).1 S1x1.size (by sl_kernel_rfl) y

/-- and its pieces for the scratch cover that. -/
theorem cover_last_acc (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : isLast i)
    (x0 : Vec F S512x1024 .f32) (x1 : Vec F S512x1024 .f32) (x2 : Vec F S512x1 .i32) (x3 : Vec F S1x512 .i32) (xs : Vec F S1x1 .f32) (y : S1x1.Idx) :
    ∃ pc ∈ (runLast c i arg2 harg2 arg3 harg3 arg4 harg4 arg5 harg5 arg6 harg6 arg7 harg7 hc0 hc1 x0 x1 x2 x3 xs).2.1, y ∈ pc.1.set :=
  View.cover_of_tiledL (runLast c i arg2 harg2 arg3 harg3 arg4 harg4 arg5 harg5 arg6 harg6 arg7 harg7 hc0 hc1 x0 x1 x2 x3 xs).2.1 S1x1.size (by sl_kernel_rfl) y

/-- What the last point leaves in the output window's buffer, -/
def outLast (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : isLast i)
    (x0 : Vec F S512x1024 .f32) (x1 : Vec F S512x1024 .f32) (x2 : Vec F S512x1 .i32) (x3 : Vec F S1x512 .i32) (xs : Vec F S1x1 .f32) : Vec F S1x1 .f32 :=
  outView.read (Elt F) (outView.writes (Elt F) outView.junk (runLast c i arg2 harg2 arg3 harg3 arg4 harg4 arg5 harg5 arg6 harg6 arg7 harg7 hc0 hc1 x0 x1 x2 x3 xs).1)

/-- and in the scratch. -/
def accLast (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : isLast i)
    (x0 : Vec F S512x1024 .f32) (x1 : Vec F S512x1024 .f32) (x2 : Vec F S512x1 .i32) (x3 : Vec F S1x512 .i32) (xs : Vec F S1x1 .f32) : Vec F S1x1 .f32 :=
  accView.read (Elt F) (accView.writes (Elt F) accView.junk (runLast c i arg2 harg2 arg3 harg3 arg4 harg4 arg5 harg5 arg6 harg6 arg7 harg7 hc0 hc1 x0 x1 x2 x3 xs).2.1)

end Cert.KernelIdeal.Hand

end
-- ==== Proof.Accum.lean ====
/-
  The running total point by point. After the body at grid position n the scratch holds what the point's case leaves
  there — the first point's value, or a later point's value over what position n - 1 left — and the output window's
  buffer holds the copied total at the last position (it is idle elsewhere). From this: the region invariant that
  tracks the scratch, the pipeline's proof data (each input window's buffer at its block; the two windows on the
  embeddings each holding one half of that array), and the body obligation at every point.
-/
import proofs.«138779_j80693845557675_2_alg».proof.Proof.Found

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's buffer where the body leaves it alone: contents nothing consults. -/
def idleOut : Vec F S1x1 .f32 := outView.read (Elt F) outView.junk

/-- THE ACCUMULATION: what the output window's buffer and the scratch hold after the body at position `n`. -/
def outsAt (c : Dev nD) : (n : ℕ) → n < cfg0.N → Vec F S1x1 .f32 × Vec F S1x1 .f32
  | 0, hn => (idleOut, accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((isFirst_iff ⟨0, hn⟩).mpr rfl) (fun h => (show (0 : ℕ) ≠ 63 by decide) ((isLast_iff ⟨0, hn⟩).mp h)) (iblk m c 0 ⟨0, hn⟩) (iblk m c 1 ⟨0, hn⟩) (iblk m c 2 ⟨0, hn⟩) (iblk m c 3 ⟨0, hn⟩))
  | n + 1, hn =>
    if h1 : n + 1 = 63 then
      (outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => Nat.succ_ne_zero n ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
       accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => Nat.succ_ne_zero n ((isFirst_iff ⟨n + 1, hn⟩).mp h)) ((isLast_iff ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
    else
      (idleOut, accMiddle c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => Nat.succ_ne_zero n ((isFirst_iff ⟨n + 1, hn⟩).mp h)) (fun h => h1 ((isLast_iff ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

/-- At the first point. -/
theorem outsAt_first (c : Dev nD) (t : Fin cfg0.N) (h0 : t.val = 0) (h1 : ¬t.val = 63) :
    outsAt m c t.val t.isLt = (idleOut, accFirst c (grid0.coords t) (ms0 t) (hs0 t) (ms1 t) (hs1 t) (ms2 t) (hs2 t) (ms3 t) (hs3 t) (ms4 t) (hs4 t) accM (Memref.isWhole_whole _) ((isFirst_iff t).mpr h0) (fun h => h1 ((isLast_iff t).mp h)) (iblk m c 0 t) (iblk m c 1 t) (iblk m c 2 t) (iblk m c 3 t)) := by
  obtain ⟨n, hn⟩ := t
  cases n with
  | zero => exact rfl
  | succ n => exact absurd h0 (Nat.succ_ne_zero n)

/-- At a middle point: over what the point before left. -/
theorem outsAt_middle (c : Dev nD) (t : Fin cfg0.N) (h0 : ¬t.val = 0) (h1 : ¬t.val = 63) :
    outsAt m c t.val t.isLt = (idleOut, accMiddle c (grid0.coords t) (ms0 t) (hs0 t) (ms1 t) (hs1 t) (ms2 t) (hs2 t) (ms3 t) (hs3 t) (ms4 t) (hs4 t) accM (Memref.isWhole_whole _) (fun h => h0 ((isFirst_iff t).mp h)) (fun h => h1 ((isLast_iff t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact absurd rfl h0
  | succ n => exact (dif_neg h1).trans rfl

/-- At the last point: over what the point before left. -/
theorem outsAt_last (c : Dev nD) (t : Fin cfg0.N) (h0 : ¬t.val = 0) (h1 : t.val = 63) :
    outsAt m c t.val t.isLt = (outLast c (grid0.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h1) (iblk m c 0 t) (iblk m c 1 t) (iblk m c 2 t) (iblk m c 3 t) (outsAt m c (t.val - 1) (Nat.lt_of_le_of_lt (Nat.sub_le _ _) t.isLt)).2,
      accLast c (grid0.coords t) (ms0 t) (hs0 t) (ms1 t) (hs1 t) (ms2 t) (hs2 t) (ms3 t) (hs3 t) (ms4 t) (hs4 t) accM (Memref.isWhole_whole _) (fun h => h0 ((isFirst_iff t).mp h)) ((isLast_iff t).mpr h1) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the scratch at anything; afterwards at what the
    point before left in it; the generator register at some state throughout. -/
def PhiS (c : Dev nD) : (n : ℕ) → n ≤ cfg0.N → sProp 𝕄
  | 0, _ => Pipeline.ΦA spec0 c
  | n + 1, hn => iprop(iprop(owns (c : Thread nD τ) accM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((outsAt m c (n - 1) (by omega)).2)) ∗ (∃ r, prngReg c r)) := by
  cases n with
  | zero => exact absurd rfl hz
  | succ n => rfl

/-! ## The pipeline's proof data -/

/-- The share each window holds of its array: the two windows on the embeddings hold the two halves of that array. -/
def qShare : Fin cfg0.W → PosShare TreeShare := fun w => if w = 0 then fullShare.left else if w = 1 then fullShare.right else fullShare

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q := qShare
  owed _ := 0

theorem A_eq (c : Dev nD) (w : Fin cfg0.W) : (dats m 0 c).A w = V m c (Pipeline.arrRef spec0 w) := by
  dsimp only [dats]

theorem q_eq (c : Dev nD) : (dats m 0 c).q = qShare := rfl

theorem PhiS_castSucc (c : Dev nD) (t : Fin cfg0.N) :
    (dats m 0 c).Φ t.castSucc = PhiS m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_out (c : Dev nD) (t : Fin cfg0.N) : (dats m 0 c).after 4 t = (outsAt m c t.val t.isLt).1 := by dsimp only [dats]

/-- Each input window's current staging buffer holds its block at every point, fetched there or not. -/
theorem before_in0 (c : Dev nD) (t : Fin cfg0.N) (d) : (dats m 0 c).before 0 t d = iblk m c 0 t :=
  ((dats m 0 c).before_in_eq_fetched 0 rfl (fun _ => rfl) (fun _ _ _ => rfl) (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl) (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl) (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl) (fun t => by rw [after_in3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0 t) fullShare (iblk m c 0 t) := by
  rw [← after_in0]
theorem leaves_in1 (c : Dev nD) (t : Fin cfg0.N) : (dats m 0 c).leavesExact 1 t = owns (c : Thread nD τ) (ms1 t) fullShare (iblk m c 1 t) := by
  rw [← after_in1]
theorem leaves_in2 (c : Dev nD) (t : Fin cfg0.N) : (dats m 0 c).leavesExact 2 t = owns (c : Thread nD τ) (ms2 t) fullShare (iblk m c 2 t) := by
  rw [← after_in2]
theorem leaves_in3 (c : Dev nD) (t : Fin cfg0.N) : (dats m 0 c).leavesExact 3 t = owns (c : Thread nD τ) (ms3 t) fullShare (iblk m c 3 t) := by
  rw [← after_in3]

set_option maxHeartbeats 4800000 in
/-- The body at any point: the inputs' buffers hold their blocks; the closed forms say which case the point is in; the
    invariant hands the body the scratch at what the point before left (at anything at the first point) and takes it back
    at this point's value; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 64 := lt_of_lt_of_eq t.isLt (show cfg0.N = 64 from N_0)
  by_cases h0 : t.val = 0
  · have h1 : ¬t.val = 63 := by omega
    have hnl : ¬isLast (grid0.coords t) := fun h => h1 ((isLast_iff t).mp h)
    rw [Dat.leavesExact_idle (dats m 0 c) 4 t (idle_out t hnl) (noFlush_out t hnl)]
    rw [outsAt_first m c t h0 h1]
    unfold accFirst; (try dsimp only)
    rw [PhiS_castSucc m c t, PhiS_zero m c _ _ h0, PhiA_eq]
    iintro ⟨⟨HS, Hg⟩, Ho, ⟨%d0, H0⟩, ⟨%d1, H1⟩, ⟨%d2, H2⟩, ⟨%d3, H3⟩, ⟨%d4, H4⟩⟩
    iapply ((runFirst c (grid0.coords t) _ _ _ _ _ _ _ _ _ _ _ _ ((isFirst_iff t).mpr h0) hnl (iblk m c 0 t) (iblk m c 1 t) (iblk m c 2 t) (iblk m c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hg]
    · isplitl [HS]
      · unfold owns; iexists _; isplitr
        swap; · iexact HS
        ipureintro; exact View.read_writes_of_cover _ _ _ _ _ (cover_first c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 63
    · have hl : isLast (grid0.coords t) := (isLast_iff t).mpr h1
      rw [show (dats m 0 c).leavesExact 4 t = owns (c : Thread nD τ) (ms4 t) fullShare ((dats m 0 c).after 4 t) from by
        unfold Dat.leavesExact; rw [live_out t hl], after_out]
      rw [outsAt_last m c t h0 h1]
      unfold outLast accLast; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ (fun h => h0 ((isFirst_iff t).mp h)) hl (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (cover_last_acc c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_last_out c _ _ _ _ _ _ _ _ _ _ _ _ _ _ _ _ _ _ _ _)
    · have hnl : ¬isLast (grid0.coords t) := fun h => h1 ((isLast_iff t).mp h)
      rw [Dat.leavesExact_idle (dats m 0 c) 4 t (idle_out t hnl) (noFlush_out t hnl)]
      rw [outsAt_middle m c t h0 h1]
      unfold accMiddle; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩⟩
      iapply ((runMiddle c (grid0.coords t) _ _ _ _ _ _ _ _ _ _ _ _ (fun h => h0 ((isFirst_iff t).mp h)) hnl (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (cover_middle c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.SharedLaunch.lean ====
/-
  The launch. Two of the pipeline's windows read the same array (the embeddings, by row block and by column block), so
  the array's buffer is split between them: each window holds one half of the full share for the whole region, and the
  halves are joined again when the region ends. After the region the three host lines (reshape the [1,1] total to a
  scalar, the constant 4096, the quotient) run holding every unscoped buffer of the core whole, at the region's exit
  contents: the entry contents with the output array replaced by what the last point wrote back. The run's post names
  every array of the pipeline and every other unscoped buffer after those lines.
-/
import proofs.«138779_j80693845557675_2_alg».proof.Proof.Accum

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (chain)

/-! ## The windows' arrays against the four buffers behind them -/

theorem arrImage : Finset.univ.image (Pipeline.arrRef spec0) = [main_arg0, main_v0, main_v1, main_v2].toFinset := by decide

section Shares
variable {c : Dev nD} (dat : Dat τ (Elt F) Unit ℕ (UR sig nD τ) ℕ cfg0 c) (hq : dat.q = qShare)
include hq

theorem share0 : dat.share 0 = fullShare.left := by unfold Dat.share; rw [hq]; rfl
theorem share1 : dat.share 1 = fullShare.right := by unfold Dat.share; rw [hq]; rfl
theorem share2 : dat.share 2 = fullShare := by unfold Dat.share; rw [hq]; rfl
theorem share3 : dat.share 3 = fullShare := by unfold Dat.share; rw [hq]; rfl
omit hq in
theorem share4 : dat.share 4 = fullShare := by unfold Dat.share; rfl

/-- The windows' arrays, window by window, are the four distinct buffers behind them, each whole: the embeddings' buffer
    is the two halves the two windows on it hold. -/
theorem arrays_iff (F0 : Buf (Elt F) ((c : Thread nD τ).loc main_arg0)) (F2 : Buf (Elt F) ((c : Thread nD τ).loc main_v0))
    (F3 : Buf (Elt F) ((c : Thread nD τ).loc main_v1)) (F4 : Buf (Elt F) ((c : Thread nD τ).loc main_v2)) :
    (dat.arrays ((fun w => match w with | ⟨0, _⟩ => F0 | ⟨1, _⟩ => F0 | ⟨2, _⟩ => F2 | ⟨3, _⟩ => F3 | ⟨4, _⟩ => F4) : (w : Fin cfg0.W) → Buf (Elt F) ((cfg0.win w).arr.view.loc (c : Thread nD τ))) : sProp 𝕄)
      ⊣⊢ iprop((((c : Thread nD τ).loc main_arg0) ↦{fullShare} F0) ∗ (((c : Thread nD τ).loc main_v0) ↦{fullShare} F2)
          ∗ (((c : Thread nD τ).loc main_v1) ↦{fullShare} F3) ∗ (((c : Thread nD τ).loc main_v2) ↦{fullShare} F4)) := by
  unfold Dat.arrays
  rw [bigSep_W0, share0 dat hq, share1 dat hq, share2 dat hq, share3 dat hq, share4 dat]
  have e0 : ((cfg0.win 0).arr.view.set) = Finset.univ := (arr_whole0 0).set_eq_univ
  have e1 : ((cfg0.win 1).arr.view.set) = Finset.univ := (arr_whole0 1).set_eq_univ
  have e2 : ((cfg0.win 2).arr.view.set) = Finset.univ := (arr_whole0 2).set_eq_univ
  have e3 : ((cfg0.win 3).arr.view.set) = Finset.univ := (arr_whole0 3).set_eq_univ
  have e4 : ((cfg0.win 4).arr.view.set) = Finset.univ := (arr_whole0 4).set_eq_univ
  rw [e0]; (try rw [e1]); (try rw [e2]); (try rw [e3]); (try rw [e4])
  dsimp only
  constructor
  · iintro ⟨Hl, Hr, H2, H3, H4⟩
    isplitl [Hl Hr]
    · iapply (pointsTo_share (PosShare.mem_left_op_right fullShare)).2
      isplitl [Hl]; · iexact Hl
      iexact Hr
    isplitl [H2]; · iexact H2
    isplitl [H3]; · iexact H3
    iexact H4
  · iintro ⟨Ha, H2, H3, H4⟩
    ihave Hs := (pointsTo_share (PosShare.mem_left_op_right fullShare)).1 $$ Ha
    icases Hs with ⟨Hl, Hr⟩
    isplitl [Hl]; · iexact Hl
    isplitl [Hr]; · iexact Hr
    isplitl [H2]; · iexact H2
    isplitl [H3]; · iexact H3
    iexact H4

/-- The same as an equation. -/
theorem arrays_eq4 (F0 : Buf (Elt F) ((c : Thread nD τ).loc main_arg0)) (F2 : Buf (Elt F) ((c : Thread nD τ).loc main_v0))
    (F3 : Buf (Elt F) ((c : Thread nD τ).loc main_v1)) (F4 : Buf (Elt F) ((c : Thread nD τ).loc main_v2)) :
    (dat.arrays ((fun w => match w with | ⟨0, _⟩ => F0 | ⟨1, _⟩ => F0 | ⟨2, _⟩ => F2 | ⟨3, _⟩ => F3 | ⟨4, _⟩ => F4) : (w : Fin cfg0.W) → Buf (Elt F) ((cfg0.win w).arr.view.loc (c : Thread nD τ))) : sProp 𝕄)
      = iprop((((c : Thread nD τ).loc main_arg0) ↦{fullShare} F0) ∗ (((c : Thread nD τ).loc main_v0) ↦{fullShare} F2)
          ∗ (((c : Thread nD τ).loc main_v1) ↦{fullShare} F3) ∗ (((c : Thread nD τ).loc main_v2) ↦{fullShare} F4)) :=
  (arrays_iff dat hq F0 F2 F3 F4).1.antisymm (arrays_iff dat hq F0 F2 F3 F4).2
end Shares

/-- The distinct buffers behind the windows' arrays, one by one. -/
theorem arrBufs_eq4 (c : Dev nD) (G : (b : Ref sig .tc) → Buf (Elt F) ((c : Thread nD τ).loc b)) :
    (Pipeline.arrBufs spec0 c G : sProp 𝕄) = iprop((((c : Thread nD τ).loc main_arg0) ↦{fullShare} G main_arg0) ∗ (((c : Thread nD τ).loc main_v0) ↦{fullShare} G main_v0)
          ∗ (((c : Thread nD τ).loc main_v1) ↦{fullShare} G main_v1) ∗ (((c : Thread nD τ).loc main_v2) ↦{fullShare} G main_v2)) := by
  unfold Pipeline.arrBufs
  rw [bigSep_eq_bigSepL_of_eq [main_arg0, main_v0, main_v1, main_v2] arrImage (by decide)]
  simp only [bigSepL_cons_cons, bigSepL_singleton]
  rfl

/-- Every unscoped buffer of the core held at a valuation: the four buffers behind the arrays, and the rest. -/
theorem held_split (c : Dev nD) (W : Valuation τ sig (Elt F)) :
    (StableHlo.held (c : Thread nD τ) (Pipeline.ucRefs τ sig) W : sProp 𝕄)
      = iprop(iprop((((c : Thread nD τ).loc main_arg0) ↦{fullShare} W (Proc.devRef .tc main_arg0)) ∗ (((c : Thread nD τ).loc main_v0) ↦{fullShare} W (Proc.devRef .tc main_v0))
          ∗ (((c : Thread nD τ).loc main_v1) ↦{fullShare} W (Proc.devRef .tc main_v1)) ∗ (((c : Thread nD τ).loc main_v2) ↦{fullShare} W (Proc.devRef .tc main_v2)))
          ∗ Pipeline.unscopedRest spec0 c (fun b => W (Proc.devRef .tc b))) := by
  rw [← Pipeline.unscopedBufs_held c W, Pipeline.unscopedBufs_split₀ cfgs 0 winFacts₀0.arr_unscoped c, arrBufs_eq4]

/-! ## Entry -/

/-- The arrays at the region's entry, window by window. -/
theorem entry_arrays (c : Dev nD) : (fun w => (dats m 0 c).arrAt w 0)
    = ((fun w => match w with | ⟨0, _⟩ => V m c main_arg0 | ⟨1, _⟩ => V m c main_arg0 | ⟨2, _⟩ => V m c main_v0 | ⟨3, _⟩ => V m c main_v1 | ⟨4, _⟩ => V m c main_v2) : (w : Fin cfg0.W) → Buf (Elt F) ((cfg0.win w).arr.view.loc (c : Thread nD τ))) := by
  funext w
  show (dats m 0 c).A w = _
  rw [A_eq]
  fin_cases w <;> rfl

/-- The launch's buffers behind the arrays make the pipeline's arrays at entry: the embeddings' buffer is split in two. -/
theorem hsplit (c : Dev nD) : (Pipeline.arrBufs spec0 c (V m c) : sProp 𝕄) ⊢ (dats m 0 c).arrays ((dats m 0 c).arrAt · 0) := by
  rw [show ((dats m 0 c).arrAt · 0) = _ from entry_arrays m c, arrays_eq4 (dats m 0 c) (q_eq m c), arrBufs_eq4]

/-! ## Exit, and the lines after the region -/

/-- What the output array holds when the region ends. -/
def outFinal (c : Dev nD) : Buf (Elt F) ((c : Thread nD τ).loc main_v2) := (dats m 0 c).arrAt 4 cfg0.N

/-- The arrays at the region's exit, window by window: the inputs unchanged, the output written back. -/
theorem exit_arrays (c : Dev nD) : (fun w => (dats m 0 c).arrAt w cfg0.N)
    = ((fun w => match w with | ⟨0, _⟩ => V m c main_arg0 | ⟨1, _⟩ => V m c main_arg0 | ⟨2, _⟩ => V m c main_v0 | ⟨3, _⟩ => V m c main_v1 | ⟨4, _⟩ => outFinal m c) : (w : Fin cfg0.W) → Buf (Elt F) ((cfg0.win w).arr.view.loc (c : Thread nD τ))) := by
  funext w
  fin_cases w
  · exact ((dats m 0 c).arrAt_in _ rfl _).trans (A_eq m c _)
  · exact ((dats m 0 c).arrAt_in _ rfl _).trans (A_eq m c _)
  · exact ((dats m 0 c).arrAt_in _ rfl _).trans (A_eq m c _)
  · exact ((dats m 0 c).arrAt_in _ rfl _).trans (A_eq m c _)
  · rfl

/-- The core's buffers at the region's exit: the entry contents with the output array as the region left it. -/
def Wexit (c : Dev nD) : Valuation τ sig (Elt F) := Function.update (V0 m c) (Proc.devRef .tc main_v2) (outFinal m c)

theorem Wexit_out (c : Dev nD) : Wexit m c (Proc.devRef .tc main_v2) = outFinal m c := Function.update_self ..
theorem Wexit_of_ne (c : Dev nD) (b : Ref sig .tc) (hb : b ≠ main_v2) : Wexit m c (Proc.devRef .tc b) = V m c b :=
  Function.update_of_ne (StableHlo.devRef_ne_of_ne hb) ..

/-- And after the three lines that follow the region. -/
def Wend (c : Dev nD) : Valuation τ sig (Elt F) := StableHlo.after hostOps1 (Wexit m c)
/-- The same read at a TensorCore reference. -/
def Vend (c : Dev nD) (b : Ref sig .tc) : Buf (Elt F) ((c : Thread nD τ).loc b) := Wend m c (Proc.devRef .tc b)

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The three lines write none of the pipeline's arrays. -/
theorem tail_keeps (b : Ref sig .tc) (hb : b = main_arg0 ∨ b = main_v0 ∨ b = main_v1 ∨ b = main_v2) :
    ∀ op ∈ (hostOps1 : List (HloOp τ sig (Elt F))), Proc.devRef .tc b ∉ op.writes := by
  intro op hop
  simp only [hostOps1, List.mem_cons, List.mem_nil_iff, or_false] at hop
  rcases hb with rfl | rfl | rfl | rfl <;> rcases hop with rfl | rfl | rfl <;>
    simp only [StableHlo.nullary_writes, StableHlo.unary_writes, StableHlo.binary_writes, StableHlo.reshape_writes, Finset.mem_singleton] <;>
    exact StableHlo.devRef_ne_of_ne (by decide)

/-- What the region's exit holds is every unscoped buffer at `Wexit`. -/
theorem exit_held (c : Dev nD) :
    (iprop((dats m 0 c).arrays ((dats m 0 c).arrAt · cfg0.N) ∗ Pipeline.unscopedRest spec0 c (V m c)) : sProp 𝕄)
      = StableHlo.held (c : Thread nD τ) (Pipeline.ucRefs τ sig) (Wexit m c) := by
  rw [show ((dats m 0 c).arrAt · cfg0.N) = _ from exit_arrays m c, arrays_eq4 (dats m 0 c) (q_eq m c), held_split,
    Wexit_out, Wexit_of_ne m c main_arg0 (by decide), Wexit_of_ne m c main_v0 (by decide), Wexit_of_ne m c main_v1 (by decide)]
  congr 1

/-- And after the lines, the same at `Wend`: the arrays as the region left them. -/
theorem end_held (c : Dev nD) :
    (iprop((dats m 0 c).arrays ((dats m 0 c).arrAt · cfg0.N) ∗ Pipeline.unscopedRest spec0 c (Vend m c)) : sProp 𝕄)
      = StableHlo.held (c : Thread nD τ) (Pipeline.ucRefs τ sig) (Wend m c) := by
  have k0 : Wend m c (Proc.devRef .tc main_arg0) = V m c main_arg0 :=
    (StableHlo.after_of_forall_not_mem _ _ (tail_keeps main_arg0 (.inl rfl))).trans (Wexit_of_ne m c main_arg0 (by decide))
  have k2 : Wend m c (Proc.devRef .tc main_v0) = V m c main_v0 :=
    (StableHlo.after_of_forall_not_mem _ _ (tail_keeps main_v0 (.inr (.inl rfl)))).trans (Wexit_of_ne m c main_v0 (by decide))
  have k3 : Wend m c (Proc.devRef .tc main_v1) = V m c main_v1 :=
    (StableHlo.after_of_forall_not_mem _ _ (tail_keeps main_v1 (.inr (.inr (.inl rfl))))).trans (Wexit_of_ne m c main_v1 (by decide))
  have k4 : Wend m c (Proc.devRef .tc main_v2) = outFinal m c :=
    (StableHlo.after_of_forall_not_mem _ _ (tail_keeps main_v2 (.inr (.inr (.inr rfl))))).trans (Wexit_out m c)
  rw [show ((dats m 0 c).arrAt · cfg0.N) = _ from exit_arrays m c, arrays_eq4 (dats m 0 c) (q_eq m c), held_split, k0, k2, k3, k4]
  rfl

set_option backward.isDefEq.respectTransparency.types false in
/-- THE LINES AFTER THE REGION: from the region's exit they run holding every unscoped buffer, and hand back the arrays as
    the region left them and the other buffers at `Vend`. -/
theorem htail (c : Dev nD) (Q' : PUnit → sProp 𝕄) :
    iprop((iprop((dats m 0 c).arrays ((dats m 0 c).arrAt · cfg0.N) ∗ Pipeline.unscopedRest spec0 c (Vend m c)) -∗ Q' ⟨⟩)
        ∗ boundary (c : Thread nD τ) ∗ (dats m 0 c).arrays ((dats m 0 c).arrAt · cfg0.N) ∗ Pipeline.unscopedRest spec0 c (V m c))
      ⊢ wp frame (wpE (defs (F := F)) (Variants.lift Variants.none) (c : Thread nD τ) none) Set.univ (chain [StableHlo.seq hostOps1]) Q' := by
  rw [exit_held, end_held]
  show _ ⊢ wp frame _ Set.univ (chain (([hostOps1] : List (List (HloOp τ sig (Elt F)))).map StableHlo.seq ++ [])) Q'
  iintro ⟨Hk, Hb⟩
  iapply (Pipeline.wp_seqs_then (fun q => (cfgs q).toPCfg (Val := Elt F)) defs₀ Variants.none c (Pipeline.ucRefs τ sig) [] [hostOps1] tail_sub tail_fresh (Wexit m c)) $$ Hb
  iintro Hb
  rw [Pipeline.chain_nil, wp_pure]
  imodintro
  iapply Hk
  icases Hb with ⟨-, H⟩
  iexact H

/-! ## The run -/

set_option backward.isDefEq.respectTransparency.types false in
/-- From any memory with zero counters every weakly fair execution of the program terminates, and every final state has
    each array of the pipeline at what the write-backs leave and every other unscoped buffer as the three lines after
    the region leave it. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = Vend m c b) := by
  classical
  exact Pipeline.θ_run_region_pf_tail (fun q => (cfgs q).toPCfg (Val := Elt F)) (fun q => (cfgs q).toPCfg_adm) (dats m) () cellOf_inj 0 winFacts₀0
    (Pipeline.OwnSemFacts.none spec0) (Pipeline.PreFacts.none _) emb₁ defs₀ Variants.none m ρ main
    (fun _ => chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vend m c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefs sig spec0, s.mem ((c.tc : Thread nD τ).loc b) = Vend m c b)
    (hY := fun c s' => by
      iintro ⟨-, HU, HSI⟩
      unfold Pipeline.unscopedRest
      imodintro
      iapply (pointsTo_read_all (Pipeline.restRefs sig spec0) (fun b => (c.tc : Thread nD τ).loc b) (Vend m c) s')
      isplitl [HU] <;> iassumption)
    (hQ := fun s h c => ⟨(h c).1, (h c).2.2⟩)

end Cert.KernelIdeal.Hand

end
-- ==== Proof.Result.lean ====
/-
  What the run leaves in the program's own buffers. The two argument arrays end as they began: the embeddings are an
  input array of the pipeline, which no write-back touches, and the labels bypass the region and are written by none
  of the lines after it. The result buffer ends at the quotient of the output array's one entry, reshaped to a scalar,
  by the constant 4096.
-/
import proofs.«138779_j80693845557675_2_alg».proof.Proof.SharedLaunch

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three lines after the region write only their own results. -/
theorem tail_writes (b : Ref sig .tc) (h3 : b ≠ main_v3) (hc : b ≠ main_cst) (h4 : b ≠ main_v4) :
    ∀ op ∈ (hostOps1 : List (HloOp τ sig (Elt F))), Proc.devRef .tc b ∉ op.writes := by
  intro op hop
  simp only [hostOps1, List.mem_cons, List.mem_nil_iff, or_false] at hop
  rcases hop with rfl | rfl | rfl
  · simp only [StableHlo.reshape_writes, Finset.mem_singleton]; exact StableHlo.devRef_ne_of_ne h3
  · simp only [StableHlo.nullary_writes, Finset.mem_singleton]; exact StableHlo.devRef_ne_of_ne hc
  · simp only [StableHlo.binary_writes, Finset.mem_singleton]; exact StableHlo.devRef_ne_of_ne h4

/-- The labels after the lines are the launch's. -/
theorem Vend_labels (c : Dev nD) : Vend m c main_arg1 = m ((c : Thread nD τ).loc main_arg1) :=
  ((StableHlo.after_of_forall_not_mem _ _ (tail_writes main_arg1 (by decide) (by decide) (by decide))).trans
    (Wexit_of_ne m c main_arg1 (by decide))).trans (V_main_arg1 m c)

/-- The result buffer after the lines: the output array's contents reshaped to a scalar, over the constant 4096. -/
theorem Vend_result (c : Dev nD) :
    Vend m c main_v4 = Host.divf (shapeCast S_ (outFinal m c) shapeCasts_S1x1_S_) (constant S_ .f32 0x45800000#32) := by
  show StableHlo.after hostOps1 (Wexit m c) (Proc.devRef .tc main_v4) = _
  after_results
  rw [Wexit_out]
  rfl

theorem labels_rest : main_arg1 ∈ Pipeline.restRefs sig spec0 :=
  Pipeline.mem_restRefs_of main_arg1 rfl (by decide)
theorem result_rest : main_v4 ∈ Pipeline.restRefs sig spec0 :=
  Pipeline.mem_restRefs_of main_v4 rfl (by decide)

/-- The run, read at the program's arguments and result. -/
theorem run_result : θ_run defs (onTc (τ := τ) (main (F := F))) ⟨m, fun _ => 0, ρ⟩ (fun r => ∀ c : Dev nD,
      r.2.mem ((c.tc : Thread nD τ).loc main_v4) = Host.divf (shapeCast S_ (outFinal m c) shapeCasts_S1x1_S_) (constant S_ .f32 0x45800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v4 result_rest).trans (Vend_result m c),
      ((h c).1 0).trans ((((dats m 0 c).arrAt_in 0 rfl _).trans (A_eq m c 0)).trans (V_main_arg0 m c)),
      ((h c).2 main_arg1 labels_rest).trans (Vend_labels m c)⟩) (run_main m ρ)

/-- THE FRAME: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1, (h c).2.2⟩) (run_result m ρ)

end Cert.KernelIdeal.Hand

end
-- ==== Proof.OutArray.lean ====
/-
  The output array after the region.

  The output window hands every grid point the same block, the whole [1, 1] array, and the pipeline writes the
  window's buffer back once, after the last of the 64 points. So the array ends holding what the last point left in
  the buffer: the block written back is the whole array, read through the window it is the buffer's contents
  unchanged, and the array's one index lies in that block.
-/
import proofs.«138779_j80693845557675_2_alg».proof.Proof.Accum
import Idealize.ShloMosaic.Lib.Pipeline.Value
import Idealize.ShloMosaic.Lib.ValueIdx

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

variable (m : (ℓ : Loc nD τ sig) → Buf (Elt F) ℓ)

/-- The output window's block index is (0, 0) at every point, and its block is never cut: decided once over the 64
    points. -/
theorem out_idx : ∀ t : Fin cfg0.N,
    win0_4.index t (0 : Fin 2) = 0 ∧ win0_4.index t (1 : Fin 2) = 0
    ∧ win0_4.xsize (grid0.coords t) (0 : Fin 2) = 1 ∧ win0_4.xsize (grid0.coords t) (1 : Fin 2) = 1 :=
  (by decide +kernel : ∀ t : Fin grid0.N, _)

/-- What the pipeline writes back after the last point is block (0, 0) — the whole array — of what that point left
    in the window's buffer. -/
theorem flushed_out (c : Dev nD) (h63 : 63 < cfg0.N) (t : Fin cfg0.N) (hf : (cfg0.win 4).flush t = true) :
    (dats m 0 c).flushed 4 t = ((cfg0.win 4).blk t).view.read (Elt F) (outsAt m c 63 h63).1 := by
  have hN : cfg0.N = 64 := N_0
  have h1 : t.val = 63 := by have := (flush0_4 t).mp hf; have := t.isLt; omega
  obtain ⟨e0, e1, -, -⟩ := out_idx t
  show (cfg0.win 4).cut (grid0.coords t) ((dats m 0 c).after 4 t) = _
  rw [after_out]
  have hX : (outsAt m c t.val t.isLt).1 = (outsAt m c 63 h63).1 := by
    obtain rfl : t = ⟨63, h63⟩ := Fin.ext h1
    rfl
  rw [hX]
  funext j
  show (outsAt m c 63 h63).1 ((cfg0.win 4).xinj (grid0.coords t) j)
    = (outsAt m c 63 h63).1 (((cfg0.win 4).blk t).view.emb j)
  refine congrArg _ (funext fun a => Fin.ext ?_)
  match a with
  | ⟨0, _⟩ => show (j 0).val = win0_4.index t (0 : Fin 2) * 1 + 1 * (j 0).val; omega
  | ⟨1, _⟩ => show (j 1).val = win0_4.index t (1 : Fin 2) * 1 + 1 * (j 1).val; omega

/-- The array's one index lies in the block written back after the last point. -/
theorem out_cover (h63 : 63 < cfg0.N) (i : S1x1.Idx) :
    ∃ t : Fin cfg0.N, (cfg0.win 4).flush t = true ∧ i ∈ ((cfg0.win 4).blk t).view.set := by
  refine ⟨⟨63, h63⟩, (flush0_4 ⟨63, h63⟩).mpr rfl, ?_⟩
  obtain ⟨e0, e1, x0, x1⟩ := out_idx ⟨63, h63⟩
  show i ∈ ((View.whole main_v2).slice (win0_4.rect ⟨63, h63⟩)).set
  rw [View.set_slice_whole, Rect.mem_set_unit]
  intro a
  have h0 : (i 0 : Nat) < 1 := (i 0).isLt
  have h1 : (i 1 : Nat) < 1 := (i 1).isLt
  match a with
  | ⟨0, _⟩ =>
    show win0_4.index ⟨63, h63⟩ (0 : Fin 2) * 1 ≤ (i 0 : Nat)
      ∧ (i 0 : Nat) < win0_4.index ⟨63, h63⟩ (0 : Fin 2) * 1 + win0_4.xsize (grid0.coords ⟨63, h63⟩) (0 : Fin 2)
    omega
  | ⟨1, _⟩ =>
    show win0_4.index ⟨63, h63⟩ (1 : Fin 2) * 1 ≤ (i 1 : Nat)
      ∧ (i 1 : Nat) < win0_4.index ⟨63, h63⟩ (1 : Fin 2) * 1 + win0_4.xsize (grid0.coords ⟨63, h63⟩) (1 : Fin 2)
    omega

/-- After the region the output array holds what the last point left in the output window's buffer. -/
theorem out_array (c : Dev nD) (h63 : 63 < cfg0.N) : (dats m 0 c).arrAt 4 cfg0.N = (outsAt m c 63 h63).1 :=
  (dats m 0 c).arrAt_eq_of_cover 4 (outsAt m c 63 h63).1 (flushed_out m c h63) (out_cover h63)

/-- The same at the array's one entry. -/
theorem out_array_apply (c : Dev nD) (h63 : 63 < cfg0.N) :
    ((dats m 0 c).arrAt 4 cfg0.N : S1x1.Idx → Elt F .f32) (ix2 (0 : Fin 1) (0 : Fin 1))
      = (outsAt m c 63 h63).1 (ix2 (0 : Fin 1) (0 : Fin 1)) :=
  congrFun (out_array m c h63) _

end Cert.KernelIdeal.Hand

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.LibColumnSum.lean ====
/-
  The sum down a column, kept as a one-entry block, read on the extended reals.

  A reduction over the first axis of an [a, 1] column gives a one-element vector, which a reshape keeps as a [1, 1]
  block. Its one entry is the sum of the column's a entries. Together with a row sum kept as a column this reads a
  block's total — first along the rows, then down the column of row sums — as a double sum over the coordinates.
-/
import Idealize.ShloMosaic.Lib.Pipeline.Value
import Idealize.ShloMosaic.Lib.ValueIdx
import Idealize.ShloMosaic.PureOps.Ideal.Laws
import proofs.«138779_j80693845557675_2_alg».proof.Proof.LibKeepdims

noncomputable section

open scoped BigOperators

namespace Cert.Lib.ColumnSum

open Idealize.ShloMosaic Idealize.ShloMosaic.ValueIdx Cert.Lib.Keepdims

/-- An index of a [1, 1] block is its one index (0, 0). -/
theorem idx_one_one (j : (⟨2, ![1, 1]⟩ : Shape).Idx) : j = ix2 (0 : Fin 1) (0 : Fin 1) := by
  funext d
  match d with
  | ⟨0, _⟩ => exact Fin.ext (by have := idx2_lt0 j; show (j 0).val = 0; omega)
  | ⟨1, _⟩ => exact Fin.ext (by have := idx2_lt1 j; show (j 1).val = 0; omega)

/-- Two [1, 1] blocks are equal when their one entries are. -/
theorem ext_one_one {α : Type} {u v : (⟨2, ![1, 1]⟩ : Shape).Idx → α}
    (h : u (ix2 (0 : Fin 1) (0 : Fin 1)) = v (ix2 (0 : Fin 1) (0 : Fin 1))) : u = v :=
  funext fun j => by rw [idx_one_one j]; exact h

/-- A [1, 1] block reshaped to a scalar: the scalar's one entry is the block's one entry. -/
theorem blockAsScalar_apply {α : Type} (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) := by
  refine shapeCast_apply x h j (ix2 (0 : Fin 1) (0 : Fin 1)) ?_
  rw [Shape.rowMajor_val_two]
  show (0 : Nat) * _ + 0 = (Shape.rowMajorPi _ j).val
  rw [Shape.rowMajorPi_zero]
  simp

/-- The sum down an [a, 1] column on the extended reals, kept as a [1, 1] block: its entry is the sum of the column's
    entries. -/
theorem sumColumn_apply {a : Nat} {φ : FTy} (v : FVec Ideal ⟨2, ![a, 1]⟩ φ) (acc : BitVec φ.bits)
    (hr : (⟨2, ![a, 1]⟩ : Shape).Reduces [0] ⟨1, ![1]⟩) (hφ : FKind.Formats φ) (hacc : acc = FKind.add.neutral φ hφ)
    (hc : (⟨1, ![1]⟩ : Shape).ShapeCasts ⟨2, ![1, 1]⟩) :
    shapeCast ⟨2, ![1, 1]⟩ (multiReduction .add [0] ⟨1, ![1]⟩ v acc hr hφ hacc) hc (ix2 (0 : Fin 1) (0 : Fin 1))
      = ∑ k : Fin a, v (ix2 k (0 : Fin 1)) := by
  refine (castCol_apply _ hc (0 : Fin 1)).trans ?_
  refine (Ideal.multiReduction_add_single v acc hr hφ hacc (ix1 (0 : Fin 1))).trans ?_
  refine Finset.sum_congr rfl fun k _ => ?_
  exact congrArg v (funext fun d => Fin.ext (by match d with | ⟨0, _⟩ => rfl | ⟨1, _⟩ => rfl))

/-- A block's total taken in two steps — each row's sum kept as a column, then the sum down that column kept as a
    [1, 1] block — is the double sum over the block's coordinates. -/
theorem blockTotal_apply {a b : Nat} {φ : FTy} (v : FVec Ideal ⟨2, ![a, b]⟩ φ) (acc acc' : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩)
    (hr' : (⟨2, ![a, 1]⟩ : Shape).Reduces [0] ⟨1, ![1]⟩) (hφ' : FKind.Formats φ) (hacc' : acc' = FKind.add.neutral φ hφ')
    (hc' : (⟨1, ![1]⟩ : Shape).ShapeCasts ⟨2, ![1, 1]⟩) :
    shapeCast ⟨2, ![1, 1]⟩ (multiReduction .add [0] ⟨1, ![1]⟩
        (shapeCast ⟨2, ![a, 1]⟩ (multiReduction .add [1] ⟨1, ![a]⟩ v acc hr hφ hacc) hc) acc' hr' hφ' hacc') hc'
        (ix2 (0 : Fin 1) (0 : Fin 1))
      = ∑ r : Fin a, ∑ k : Fin b, v (ix2 r k) := by
  refine (sumColumn_apply _ acc' hr' hφ' hacc' hc').trans ?_
  exact Finset.sum_congr rfl fun r _ => sumCol_apply v acc hr hφ hacc hc r

end Cert.Lib.ColumnSum

end
-- ==== Proof.Spec.lean ====
/-
  The specification of the pairwise loss, with no program in sight.

  For a matrix x : [4096, 1024] of extended reals and labels t : [4096] of 32-bit words, the similarity of rows r and
  c is  sim r c = Σ_k x(r,k) · x(c,k).  A pair (r, c) contributes
    pairPos = (1 − sim r c)  when the labels agree and r ≠ c, else 0,
    pairNeg = sim r c        when the labels differ and sim r c > 1/2, else 0,
  and the result is (Σ_{r,c} pairPos + Σ_{r,c} pairNeg) / 4096.  The three float literals 1, 1/2, 0 and the divisor
  4096 are kept as the words that encode them; only the zero word is ever evaluated.
-/
import Idealize.ShloMosaic.PureOps.Ideal
import Idealize.ShloMosaic.Lib.ValueIdx

noncomputable section

open scoped BigOperators

namespace Cert.Spec

open Idealize.ShloMosaic Idealize.ShloMosaic.ValueIdx

/-- The contribution of a pair with labels `ta`, `tb`, diagonal bit `e` (1 exactly on the diagonal) and similarity
    `s` to the same-label sum: `1 − s` when the labels agree off the diagonal, else `0`. -/
def pairPos (ta tb : BitVec 32) (e : BitVec 1) (s : EReal) : EReal :=
  Scalar.select (IntOp.andi (IntOp.cmpi .eq ta tb) (~~~e))
    (Ideal.ofBits .f32 0x3F800000#32 - s) (Ideal.ofBits .f32 0x00000000#32)

/-- The contribution of a pair with labels `ta`, `tb` and similarity `s` to the different-label sum: `s` when the
    labels differ and `s > 1/2`, else `0`. -/
def pairNeg (ta tb : BitVec 32) (s : EReal) : EReal :=
  Scalar.select (IntOp.andi (~~~(IntOp.cmpi .eq ta tb)) (Ideal.cmp .ogt s (Ideal.ofBits .f32 0x3F000000#32)))
    s (Ideal.ofBits .f32 0x00000000#32)

/-- The inner product of two rows of length 1024. -/
def dot (a b : Fin 1024 → EReal) : EReal := ∑ k : Fin 1024, a k * b k

/-- On one bit, exclusive-or with the set bit is the complement: the two spellings of "not" agree. -/
theorem xori_one (b : BitVec 1) : IntOp.xori b 1#1 = ~~~b := by
  rcases BitVec.eq_zero_or_eq_one b with h | h <;> subst h <;> rfl

/-- The diagonal bit of the pair (r, c): set exactly when r = c. -/
def eye (r c : Fin 4096) : BitVec 1 := BitVec.ofBool (decide (r = c))

/-- Comparing the 32-bit words of two naturals below 4096 for equality compares the naturals. -/
theorem cmpi_eq_ofNat (a b : Nat) (ha : a < 4096) (hb : b < 4096) :
    IntOp.cmpi .eq (BitVec.ofNat 32 a) (BitVec.ofNat 32 b) = BitVec.ofBool (decide (a = b)) := by
  unfold IntOp.cmpi
  congr 1
  by_cases h : a = b
  · subst h; simp
  · have : BitVec.ofNat 32 a ≠ BitVec.ofNat 32 b := by
      intro hh
      have := congrArg BitVec.toNat hh
      simp only [BitVec.toNat_ofNat] at this
      omega
    simp [h, this]

/-- The same comparison at two coordinates, as the diagonal bit. -/
theorem cmpi_eq_eye (r c : Fin 4096) :
    IntOp.cmpi .eq (BitVec.ofNat 32 r.val) (BitVec.ofNat 32 c.val) = eye r c := by
  rw [cmpi_eq_ofNat r.val c.val r.isLt c.isLt]
  unfold eye
  congr 1
  by_cases h : r = c
  · subst h; simp
  · have : r.val ≠ c.val := fun hh => h (Fin.ext hh)
    simp [h, this]

/-- Row `r` of the matrix. -/
def row (x : (⟨2, ![4096, 1024]⟩ : Shape).Idx → EReal) (r : Fin 4096) : Fin 1024 → EReal := fun k => x (ix2 r k)

/-- The similarity of rows `r` and `c`. -/
def sim (x : (⟨2, ![4096, 1024]⟩ : Shape).Idx → EReal) (r c : Fin 4096) : EReal := dot (row x r) (row x c)

/-- The same-label sum over all pairs. -/
def posSum (x : (⟨2, ![4096, 1024]⟩ : Shape).Idx → EReal) (t : (⟨1, ![4096]⟩ : Shape).Idx → BitVec 32) : EReal :=
  ∑ r : Fin 4096, ∑ c : Fin 4096, pairPos (t (ix1 r)) (t (ix1 c)) (eye r c) (sim x r c)

/-- The different-label sum over all pairs. -/
def negSum (x : (⟨2, ![4096, 1024]⟩ : Shape).Idx → EReal) (t : (⟨1, ![4096]⟩ : Shape).Idx → BitVec 32) : EReal :=
  ∑ r : Fin 4096, ∑ c : Fin 4096, pairNeg (t (ix1 r)) (t (ix1 c)) (sim x r c)

/-- The loss: both sums, added, over 4096 (the divisor kept as its word). -/
def total (x : (⟨2, ![4096, 1024]⟩ : Shape).Idx → EReal) (t : (⟨1, ![4096]⟩ : Shape).Idx → BitVec 32) : EReal :=
  Ideal.div (posSum x t + negSum x t) (Ideal.ofBits .f32 0x45800000#32)

end Cert.Spec

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.TileValue.lean ====
/-
  The value one grid point of the kernel adds to its accumulator, on the extended reals.

  A grid point (i, j) holds a block xi of 512 rows of x, a block xj of 512 rows of x, the labels ti of the first
  block as a column and the labels tj of the second block as a row. Entry (p, q) of the similarity tile is the
  1024-term sum of the products xi(p, k) * xj(q, k). The tile's same-label part keeps 1 - sim where the labels
  agree off the diagonal of the whole array, its different-label part keeps sim where the labels differ and sim
  exceeds one half. Each part is summed along its rows, then down the column of row sums, and the two totals are
  added to the accumulator's one entry. The diagonal of the whole array crosses the tile where
  512 i + p = 512 j + q; the kernel tests this on 32-bit words, which do not wrap below 4096.
-/
import proofs.«138779_j80693845557675_2_alg».proof.Proof.Gen.KernelIdeal.Skeleton
import proofs.«138779_j80693845557675_2_alg».proof.Proof.Spec
import proofs.«138779_j80693845557675_2_alg».proof.Proof.LibMatmulPlain
import proofs.«138779_j80693845557675_2_alg».proof.Proof.LibKeepdims
import proofs.«138779_j80693845557675_2_alg».proof.Proof.LibColumnSum

noncomputable section

open scoped BigOperators

namespace Cert.KernelIdeal.TileValue

open Idealize.ShloMosaic Idealize.ShloMosaic.ValueIdx Cert.KernelIdeal Cert.KernelIdeal.Gen

variable {F : FTy → Type} [FloatOps F]

/-- What one grid point stores back into the accumulator: the accumulator it found plus the tile's two totals. -/
def tile (i : grid0.Coords) (xi xj : Vec F S512x1024 .f32) (ti : Vec F S512x1 .i32) (tj : Vec F S1x512 .i32)
    (acc : Vec F S1x1 .f32) : FVec F S1x1 .f32 :=
  Gen.k0_pay1 (Gen.k0_pay3 xi xj) (Gen.k0_pay5 (F := F) ti tj) (Gen.k0_pay6 i xi xj ti tj) acc

/-! ## The similarity tile -/

/-- Entry (p, q) of the similarity tile: the sum over the 1024 features of the products of row p of the first block
    and row q of the second. A change of float format is the identity on the extended reals, the second block is
    read transposed, and the accumulator starts at zero. -/
theorem sim_apply (xi xj : Vec Ideal S512x1024 .f32) (p q : Fin 512) :
    Gen.k0_pay3 (F := Ideal) xi xj (ix2 p q) = Spec.dot (fun k => xi (ix2 p k)) (fun k => xj (ix2 q k)) := by
  unfold Gen.k0_pay3
  refine (Cert.LibMatmulPlain.matmul_zero_apply (M := 512) (K := 1024) (N := 512)
    dot_S512x1024_S1024x512_S512x512_1_0_0_1_n_n_wf none _ _ p q).trans ?_
  refine Finset.sum_congr rfl fun k _ => ?_
  refine congrArg (xi (ix2 p k) * ·) ?_
  exact transpose_apply [1, 0] _ _ (ix2 k q) (ix2 q k) (fun d => match d with
    | ⟨0, _⟩ => rfl
    | ⟨1, _⟩ => rfl)

/-! ## The label mask -/

/-- Entry (p, q) of the same-label mask compares label p of the column with label q of the row: the column is
    repeated along the rows' length, the row down the columns' height. -/
theorem same_apply (ti : Vec F S512x1 .i32) (tj : Vec F S1x512 .i32) (p q : Fin 512) :
    Gen.k0_pay4 (F := F) ti tj (ix2 p q) = IntOp.cmpi .eq (ti (ix2 p (0 : Fin 1))) (tj (ix2 (0 : Fin 1) q)) := by
  unfold Gen.k0_pay4
  refine congrArg₂ (IntOp.cmpi .eq) ?_ ?_
  · refine (Cert.Lib.Keepdims.bcastCol_apply _ _ p q).trans ?_
    exact congrFun (shapeCast_self ti _) _
  · refine (broadcastTo_apply _ _ (ix2 p q) (ix2 (0 : Fin 1) q) (fun d => match d with
      | ⟨0, _⟩ => by show 0 = if (1 : Nat) = 1 then 0 else p.val; rw [if_pos rfl]
      | ⟨1, _⟩ => by show q.val = if (512 : Nat) = 1 then 0 else q.val; rw [if_neg (by decide)])).trans ?_
    exact congrFun (shapeCast_self tj _) _

/-! ## The diagonal bit -/

/-- The kernel's diagonal bit at entry (p, q) of the tile of grid point i: the words 512 i₀ + p and 512 i₁ + q
    compared for equality. -/
def diag (i : grid0.Coords) (p q : Fin 512) : BitVec 1 :=
  IntOp.cmpi .eq (IntOp.addi (Scalar.muli (BitVec.ofNat 32 (i 0).val) 512#32) (BitVec.ofNat 32 p.val))
    (IntOp.addi (Scalar.muli (BitVec.ofNat 32 (i 1).val) 512#32) (BitVec.ofNat 32 q.val))

/-- The tile of diagonal bits as the kernel forms it: the block's first row or column number, repeated over the tile,
    plus the coordinate along that axis. -/
def diagTile (i : grid0.Coords) : IVec S512x512 1 :=
  cmpi .eq
    (addi (broadcast S512x512 (Scalar.muli (BitVec.ofNat 32 (i 0).val) 512#32)) (iota .tc S512x512 32 [0] iota_S512x512_d0_w32))
    (addi (broadcast S512x512 (Scalar.muli (BitVec.ofNat 32 (i 1).val) 512#32)) (iota .tc S512x512 32 [1] iota_S512x512_d1_w32))

theorem diagTile_apply (i : grid0.Coords) (p q : Fin 512) : diagTile i (ix2 p q) = diag i p q := by
  show IntOp.cmpi .eq (IntOp.addi _ (iota .tc S512x512 32 [0] iota_S512x512_d0_w32 (ix2 p q)))
    (IntOp.addi _ (iota .tc S512x512 32 [1] iota_S512x512_d1_w32 (ix2 p q))) = _
  rw [iota_single_apply, iota_single_apply]
  rfl

/-- The word 512 a + p, for any naturals. -/
theorem word_eq (a p : Nat) :
    IntOp.addi (Scalar.muli (BitVec.ofNat 32 a) 512#32) (BitVec.ofNat 32 p) = BitVec.ofNat 32 (a * 512 + p) := by
  show BitVec.ofNat 32 a * BitVec.ofNat 32 512 + BitVec.ofNat 32 p = _
  rw [BitVec.ofNat_add, BitVec.ofNat_mul]

/-- The diagonal bit compares the naturals 512 i₀ + p and 512 i₁ + q: both are below 4096, so the words do not wrap. -/
theorem diag_eq (i : grid0.Coords) (p q : Fin 512) :
    diag i p q = BitVec.ofBool (decide ((i 0).val * 512 + p.val = (i 1).val * 512 + q.val)) := by
  have h0 : (i 0).val < 8 := (i 0).isLt
  have h1 : (i 1).val < 8 := (i 1).isLt
  have hp := p.isLt
  have hq := q.isLt
  unfold diag
  rw [word_eq, word_eq]
  exact Spec.cmpi_eq_ofNat _ _ (by omega) (by omega)

/-- The diagonal bit is set exactly where the tile meets the diagonal of the whole array. -/
theorem diag_eq_one_iff (i : grid0.Coords) (p q : Fin 512) :
    diag i p q = 1#1 ↔ 512 * (i 0).val + p.val = 512 * (i 1).val + q.val := by
  rw [diag_eq]
  by_cases h : (i 0).val * 512 + p.val = (i 1).val * 512 + q.val
  · rw [decide_eq_true h]
    exact ⟨fun _ => by omega, fun _ => rfl⟩
  · rw [decide_eq_false h]
    exact ⟨fun hh => absurd hh (by decide), fun hh => absurd (by omega) h⟩

/-- The diagonal bit is the diagonal bit of the whole array at the row and column the entry sits at. -/
theorem diag_eq_eye (i : grid0.Coords) (p q : Fin 512) (r c : Fin 4096)
    (hr : r.val = (i 0).val * 512 + p.val) (hc : c.val = (i 1).val * 512 + q.val) :
    diag i p q = Spec.eye r c := by
  unfold diag
  rw [word_eq, word_eq, ← hr, ← hc]
  exact Spec.cmpi_eq_eye r c

/-! ## The two totals and the stored value -/

/-- The same-label total of the tile, kept as a [1, 1] block: the double sum over the tile of the pairs'
    contributions. -/
theorem posTotal_apply (i : grid0.Coords) (xi xj : Vec Ideal S512x1024 .f32) (ti : Vec Ideal S512x1 .i32)
    (tj : Vec Ideal S1x512 .i32) :
    shapeCast S1x1 (Gen.k0_pay6 (F := Ideal) i xi xj ti tj) shapeCasts_S1_S1x1 (ix2 (0 : Fin 1) (0 : Fin 1))
      = ∑ p : Fin 512, ∑ q : Fin 512, Spec.pairPos (ti (ix2 p (0 : Fin 1))) (tj (ix2 (0 : Fin 1) q)) (diag i p q)
          (Spec.dot (fun k => xi (ix2 p k)) (fun k => xj (ix2 q k))) := by
  unfold Gen.k0_pay6
  refine (Cert.Lib.ColumnSum.blockTotal_apply _ _ _ _ _ _ _ _ _ _ _).trans ?_
  refine Finset.sum_congr rfl fun p _ => Finset.sum_congr rfl fun q _ => ?_
  show Scalar.select (IntOp.andi (Gen.k0_pay4 (F := Ideal) ti tj (ix2 p q)) (IntOp.xori (diagTile i (ix2 p q)) 1#1))
    (Ideal.ofBits .f32 0x3F800000#32 - Gen.k0_pay3 (F := Ideal) xi xj (ix2 p q)) (Ideal.ofBits .f32 0x00000000#32) = _
  rw [same_apply (F := Ideal) ti tj p q, diagTile_apply i p q, sim_apply xi xj p q, Spec.xori_one]
  rfl

/-- The value a grid point stores: the accumulator's entry plus the tile's same-label total plus its different-label
    total, each a double sum over the tile's coordinates. -/
theorem tile_apply (i : grid0.Coords) (xi xj : Vec Ideal S512x1024 .f32) (ti : Vec Ideal S512x1 .i32)
    (tj : Vec Ideal S1x512 .i32) (acc : Vec Ideal S1x1 .f32) :
    tile (F := Ideal) i xi xj ti tj acc (ix2 (0 : Fin 1) (0 : Fin 1))
      = acc (ix2 (0 : Fin 1) (0 : Fin 1))
        + ((∑ p : Fin 512, ∑ q : Fin 512, Spec.pairPos (ti (ix2 p (0 : Fin 1))) (tj (ix2 (0 : Fin 1) q)) (diag i p q)
              (Spec.dot (fun k => xi (ix2 p k)) (fun k => xj (ix2 q k))))
          + (∑ p : Fin 512, ∑ q : Fin 512, Spec.pairNeg (ti (ix2 p (0 : Fin 1))) (tj (ix2 (0 : Fin 1) q))
              (Spec.dot (fun k => xi (ix2 p k)) (fun k => xj (ix2 q k))))) := by
  unfold tile Gen.k0_pay1
  refine (congrFun (shapeCast_self _ _) _).trans ?_
  refine congrArg (acc (ix2 (0 : Fin 1) (0 : Fin 1)) + ·) ?_
  refine congrArg₂ (· + ·) (posTotal_apply i xi xj ti tj) ?_
  refine (Cert.Lib.ColumnSum.blockTotal_apply _ _ _ _ _ _ _ _ _ _ _).trans ?_
  refine Finset.sum_congr rfl fun p _ => Finset.sum_congr rfl fun q _ => ?_
  show Scalar.select (IntOp.andi (IntOp.xori (Gen.k0_pay4 (F := Ideal) ti tj (ix2 p q)) 1#1)
      (Ideal.cmp .ogt (Gen.k0_pay3 (F := Ideal) xi xj (ix2 p q)) (Ideal.ofBits .f32 0x3F000000#32)))
    (Gen.k0_pay3 (F := Ideal) xi xj (ix2 p q)) (Ideal.ofBits .f32 0x00000000#32) = _
  rw [same_apply (F := Ideal) ti tj p q, sim_apply xi xj p q, Spec.xori_one]
  rfl

/-- The value the first grid point resets the accumulator to: zero. -/
theorem reset_apply : Gen.k0_pay2 (F := Ideal) (ix2 (0 : Fin 1) (0 : Fin 1)) = 0 := by
  unfold Gen.k0_pay2
  refine (congrFun (shapeCast_self _ _) _).trans ?_
  exact Ideal.ofBits_zero_f32

end Cert.KernelIdeal.TileValue

end
-- ==== Proof.Pieces.lean ====
/-
  What the body leaves behind at a grid point, as the tile's value.

  At every grid point the body loads the two blocks of rows and the two blocks of labels whole, loads the running
  total from the [1, 1] scratch, adds the tile's same-label and different-label totals to it and stores the sum back
  with one store that covers the scratch. At the first point the scratch is first reset to zero, and the total that
  is loaded is that zero; at the last point the total is loaded once more after the store and copied into the output
  window's buffer. So the scratch ends holding the tile's stored value over the total it found (zero at the first
  point), and at the last point the output's buffer holds the same value.
-/
import proofs.«138779_j80693845557675_2_alg».proof.Proof.Found
import proofs.«138779_j80693845557675_2_alg».proof.Proof.TileValue

set_option maxRecDepth 16384

noncomputable section

namespace Cert.KernelIdeal.Hand

open Cert.KernelIdeal.Gen
open Idealize.ShloMosaic Idealize.ShloMosaic.TcCoe Idealize.ShloMosaic.Tactic
open Idealize.SL.Sem

variable {F : FTy → Type} [FloatOps F]

/-- Every load and store of the body starts at the origin of its buffer. -/
private theorem hz : (![0, 0] : Fin 2 → Nat) = fun _ => 0 := funext fun a => by fin_cases a <;> rfl

/-- A middle point loads the running total, adds the tile's two totals and stores the sum: its one store covers the
    scratch, and every load reads a whole buffer. -/
theorem accMiddle_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : ¬isLast i)
    (x0 : Vec F S512x1024 .f32) (x1 : Vec F S512x1024 .f32) (x2 : Vec F S512x1 .i32) (x3 : Vec F S1x512 .i32) (xs : Vec F S1x1 .f32) :
    accMiddle c i arg2 harg2 arg3 harg3 arg4 harg4 arg5 harg5 arg6 harg6 arg7 harg7 hc0 hc1 x0 x1 x2 x3 xs = TileValue.tile i x0 x1 x2 x3 xs := by
  unfold accMiddle
  rw [View.read_writes_eq_canon _ _ _ (cover_middle c i arg2 harg2 arg3 harg3 arg4 harg4 arg5 harg5 arg6 harg6 arg7 harg7 hc0 hc1 x0 x1 x2 x3 xs)]
  unfold runMiddle
  dsimp only
  sl_unfold_words
  rw [View.canon_unit_zero hz]
  unfold TileValue.tile
  simp only [View.readAt_eq_ld, harg2.read_unread, harg3.read_unread, harg4.read_unread, harg5.read_unread, harg7.read_unread,
    View.ld_unit_zero (S := S512x1024) hz, View.ld_unit_zero (S := S512x1) hz, View.ld_unit_zero (S := S1x512) hz,
    View.ld_unit_zero (S := S1x1) hz]

/-- The first point stores zero into the scratch, loads it back, adds the tile's two totals and stores the sum: the
    later store covers the scratch, and the load between the two reads what the earlier one stored. -/
theorem accFirst_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : isFirst i) (hc1 : ¬isLast i)
    (x0 : Vec F S512x1024 .f32) (x1 : Vec F S512x1024 .f32) (x2 : Vec F S512x1 .i32) (x3 : Vec F S1x512 .i32) :
    accFirst c i arg2 harg2 arg3 harg3 arg4 harg4 arg5 harg5 arg6 harg6 arg7 harg7 hc0 hc1 x0 x1 x2 x3 = TileValue.tile i x0 x1 x2 x3 (Gen.k0_pay2 (F := F)) := by
  unfold accFirst
  rw [View.read_writes_eq_canon _ _ _ (cover_first c i arg2 harg2 arg3 harg3 arg4 harg4 arg5 harg5 arg6 harg6 arg7 harg7 hc0 hc1 x0 x1 x2 x3)]
  unfold runFirst
  dsimp only
  sl_unfold_words
  rw [View.canon_cons_unit_zero (S := S1x1) hz, View.readCov_unit_zero (S := S1x1) _ hz]
  unfold TileValue.tile
  simp only [View.readAt_eq_ld, harg2.read_unread, harg3.read_unread, harg4.read_unread, harg5.read_unread,
    View.ld_unit_zero (S := S512x1024) hz, View.ld_unit_zero (S := S512x1) hz, View.ld_unit_zero (S := S1x512) hz]

/-- The last point leaves in the scratch what a middle point does. -/
theorem accLast_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : isLast i)
    (x0 : Vec F S512x1024 .f32) (x1 : Vec F S512x1024 .f32) (x2 : Vec F S512x1 .i32) (x3 : Vec F S1x512 .i32) (xs : Vec F S1x1 .f32) :
    accLast c i arg2 harg2 arg3 harg3 arg4 harg4 arg5 harg5 arg6 harg6 arg7 harg7 hc0 hc1 x0 x1 x2 x3 xs = TileValue.tile i x0 x1 x2 x3 xs := by
  unfold accLast
  rw [View.read_writes_eq_canon _ _ _ (cover_last_acc c i arg2 harg2 arg3 harg3 arg4 harg4 arg5 harg5 arg6 harg6 arg7 harg7 hc0 hc1 x0 x1 x2 x3 xs)]
  unfold runLast
  dsimp only
  sl_unfold_words
  rw [View.canon_unit_zero hz]
  unfold TileValue.tile
  simp only [View.readAt_eq_ld, harg2.read_unread, harg3.read_unread, harg4.read_unread, harg5.read_unread, harg7.read_unread,
    View.ld_unit_zero (S := S512x1024) hz, View.ld_unit_zero (S := S512x1) hz, View.ld_unit_zero (S := S1x512) hz,
    View.ld_unit_zero (S := S1x1) hz]

/-- The last point then loads the total back from the scratch and stores it into the output window's buffer: the
    output receives the same value. -/
theorem outLast_eq (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S1x1 .f32) (harg6 : arg6.IsWhole) (arg7 : Memref sig .tc .vmem S1x1 .f32) (harg7 : arg7.IsWhole) (hc0 : ¬isFirst i) (hc1 : isLast i)
    (x0 : Vec F S512x1024 .f32) (x1 : Vec F S512x1024 .f32) (x2 : Vec F S512x1 .i32) (x3 : Vec F S1x512 .i32) (xs : Vec F S1x1 .f32) :
    outLast c i arg2 harg2 arg3 harg3 arg4 harg4 arg5 harg5 arg6 harg6 arg7 harg7 hc0 hc1 x0 x1 x2 x3 xs = TileValue.tile i x0 x1 x2 x3 xs := by
  unfold outLast
  rw [View.read_writes_eq_canon _ _ _ (cover_last_out c i arg2 harg2 arg3 harg3 arg4 harg4 arg5 harg5 arg6 harg6 arg7 harg7 hc0 hc1 x0 x1 x2 x3 xs)]
  unfold runLast
  dsimp only
  sl_unfold_words
  rw [View.canon_unit_zero hz, View.readCov_unit_zero (S := S1x1) _ hz]
  unfold TileValue.tile
  simp only [View.readAt_eq_ld, harg2.read_unread, harg3.read_unread, harg4.read_unread, harg5.read_unread, harg7.read_unread,
    View.ld_unit_zero (S := S512x1024) hz, View.ld_unit_zero (S := S512x1) hz, View.ld_unit_zero (S := S1x512) hz,
    View.ld_unit_zero (S := S1x1) hz]

end Cert.KernelIdeal.Hand

end
-- ==== Proof.LibSumBlocks.lean ====
/-
  Summing a function over `Fin (a * b)` block by block.

  The numbers below `a * b` are exactly the numbers `k * b + j` with `k < a` and `j < b`, each written in one way
  (`k` is the quotient by `b`, `j` the remainder). So a sum over all of them, in a commutative monoid, is the sum
  over the `a` blocks of `b` consecutive numbers of each block's own sum. Only commutativity and associativity of
  the addition are used: nothing is cancelled or distributed, so the statements hold in any additive commutative
  monoid, the extended reals included.
-/
import Mathlib.Algebra.BigOperators.Fin
import Mathlib.Data.Fintype.BigOperators
import Mathlib.Logic.Equiv.Fin.Basic

open scoped BigOperators

namespace Cert.LibSumBlocks

/-- The `j`-th number of the `k`-th block of `b` consecutive numbers lies below `a * b` when `k < a` and `j < b`. -/
theorem block_index_lt {a b : ℕ} (k : Fin a) (j : Fin b) : k.val * b + j.val < a * b :=
  calc k.val * b + j.val < k.val * b + b := Nat.add_lt_add_left j.isLt _
    _ = (k.val + 1) * b := (Nat.succ_mul _ _).symm
    _ ≤ a * b := Nat.mul_le_mul_right _ k.isLt

/-- A sum over `Fin (a * b)` is the sum, over the `a` blocks of `b` consecutive indices, of the sums over each
    block: `∑ i, f i = ∑ k < a, ∑ j < b, f (k * b + j)`, in any additive commutative monoid. -/
theorem sum_blocks {M : Type*} [AddCommMonoid M] (a b : ℕ) (f : Fin (a * b) → M) :
    ∑ i : Fin (a * b), f i = ∑ k : Fin a, ∑ j : Fin b, f ⟨k.val * b + j.val, block_index_lt k j⟩ := by
  rw [← Equiv.sum_comp finProdFinEquiv f, Fintype.sum_prod_type]
  refine Finset.sum_congr rfl fun k _ => Finset.sum_congr rfl fun j _ => congrArg f (Fin.ext ?_)
  show j.val + b * k.val = k.val * b + j.val
  rw [Nat.mul_comm, Nat.add_comm]

/-- The same with the blocks' sums listed in the other nesting: the sum, over the position `j` inside a block, of
    the sum over the blocks. -/
theorem sum_blocks_comm {M : Type*} [AddCommMonoid M] (a b : ℕ) (f : Fin (a * b) → M) :
    ∑ i : Fin (a * b), f i = ∑ j : Fin b, ∑ k : Fin a, f ⟨k.val * b + j.val, block_index_lt k j⟩ :=
  (sum_blocks a b f).trans Finset.sum_comm

/-- `4096 = 4 * 1024`: a sum over 4096 indices, accumulated from zero one block of 1024 at a time — the blocks
    starting at 0, 1024, 2048 and 3072 — is the whole sum. -/
theorem sum_four_blocks {M : Type*} [AddCommMonoid M] (f : Fin 4096 → M) :
    ((((0 + ∑ j : Fin 1024, f ⟨j.val, by have := j.isLt; omega⟩)
          + ∑ j : Fin 1024, f ⟨1024 + j.val, by have := j.isLt; omega⟩)
        + ∑ j : Fin 1024, f ⟨2048 + j.val, by have := j.isLt; omega⟩)
      + ∑ j : Fin 1024, f ⟨3072 + j.val, by have := j.isLt; omega⟩)
    = ∑ i : Fin 4096, f i := by
  rw [zero_add]
  refine Eq.symm ((sum_blocks 4 1024 f).trans ?_)
  rw [Fin.sum_univ_four]
  refine congrArg₂ (· + ·) (congrArg₂ (· + ·) (congrArg₂ (· + ·) ?_ ?_) ?_) ?_
  · exact Finset.sum_congr rfl fun j _ => congrArg f (Fin.ext (by show 0 * 1024 + j.val = j.val; omega))
  · exact Finset.sum_congr rfl fun j _ => congrArg f (Fin.ext (by show 1 * 1024 + j.val = 1024 + j.val; omega))
  · exact Finset.sum_congr rfl fun j _ => congrArg f (Fin.ext (by show 2 * 1024 + j.val = 2048 + j.val; omega))
  · exact Finset.sum_congr rfl fun j _ => congrArg f (Fin.ext (by show 3 * 1024 + j.val = 3072 + j.val; omega))

end Cert.LibSumBlocks
-- ==== Proof.Regroup.lean ====
/-
  Regrouping a sum over all pairs of 4096 rows into the 8 × 8 grid of 512 × 512 tiles, and a running total over
  the 64 tiles taken in row-major order.

  Every number below 4096 is i · 512 + p for exactly one i < 8 and p < 512, so the sum over all pairs (r, c) is the
  sum over the tiles (i, j) of the sum over the positions (p, q) inside a tile. A running total that starts at the
  first term and adds one further term at each step ends at the sum of all terms. Only commutativity and
  associativity of the addition are used, so everything here holds in any additive commutative monoid.
-/
import proofs.«138779_j80693845557675_2_alg».proof.Proof.LibSumBlocks

open scoped BigOperators

namespace Cert.Regroup

open Cert.LibSumBlocks

/-- Position `p` of block `i` among 4096 rows cut into 8 blocks of 512: the row `i · 512 + p`. -/
def blk (i : Fin 8) (p : Fin 512) : Fin 4096 := ⟨i.val * 512 + p.val, by have := i.isLt; have := p.isLt; omega⟩

@[simp] theorem blk_val (i : Fin 8) (p : Fin 512) : (blk i p).val = i.val * 512 + p.val := rfl

/-- Point `(i, j)` of the 8 × 8 grid in row-major order: the number `i · 8 + j` below 64. -/
def pt (i j : Fin 8) : Fin 64 := ⟨i.val * 8 + j.val, by have := i.isLt; have := j.isLt; omega⟩

@[simp] theorem pt_val (i j : Fin 8) : (pt i j).val = i.val * 8 + j.val := rfl

/-- A sum over 4096 rows is the sum over the 8 blocks of the sums over the 512 rows of each. -/
theorem sum_rows {M : Type*} [AddCommMonoid M] (g : Fin 4096 → M) :
    ∑ r : Fin 4096, g r = ∑ i : Fin 8, ∑ p : Fin 512, g (blk i p) :=
  sum_blocks 8 512 (fun r : Fin (8 * 512) => g r)

/-- The sum over all pairs of rows is the sum over the 64 tiles of the sums over the 512 × 512 pairs of each. -/
theorem sum_tiles {M : Type*} [AddCommMonoid M] (f : Fin 4096 → Fin 4096 → M) :
    ∑ r : Fin 4096, ∑ c : Fin 4096, f r c
      = ∑ i : Fin 8, ∑ j : Fin 8, ∑ p : Fin 512, ∑ q : Fin 512, f (blk i p) (blk j q) := by
  rw [sum_rows (fun r => ∑ c : Fin 4096, f r c)]
  refine Finset.sum_congr rfl fun i _ => ?_
  have cols : ∀ p : Fin 512, ∑ c : Fin 4096, f (blk i p) c = ∑ j : Fin 8, ∑ q : Fin 512, f (blk i p) (blk j q) :=
    fun p => sum_rows (fun c => f (blk i p) c)
  exact (Finset.sum_congr rfl fun p _ => cols p).trans Finset.sum_comm

/-- A sum over the 64 points is the sum over the grid's rows of the sums over each row's 8 points. -/
theorem sum_points {M : Type*} [AddCommMonoid M] (g : Fin 64 → M) :
    ∑ n : Fin 64, g n = ∑ i : Fin 8, ∑ j : Fin 8, g (pt i j) :=
  sum_blocks 8 8 (fun n : Fin (8 * 8) => g n)

/-- A running total over the naturals below `N` that starts at the first term and adds the next term at each
    step is, at step `n`, the sum of the terms up to and including `n`. -/
theorem running_total {M : Type*} [AddCommMonoid M] (N : ℕ) (acc g : ℕ → M) (h0 : acc 0 = g 0)
    (hs : ∀ n, n + 1 < N → acc (n + 1) = acc n + g (n + 1)) :
    ∀ n, n < N → acc n = ∑ k ∈ Finset.range (n + 1), g k := by
  intro n
  induction n with
  | zero => intro _; rw [h0]; simp
  | succ n ih =>
    intro h
    rw [hs n h, ih (by omega), Finset.sum_range_succ _ (n + 1)]

/-- The same over the 64 points: the running total at the last point is the sum over all 64. -/
theorem running_total_last {M : Type*} [AddCommMonoid M] (acc g : Fin 64 → M) (h0 : acc ⟨0, by omega⟩ = g ⟨0, by omega⟩)
    (hs : ∀ (n : ℕ) (h : n + 1 < 64), acc ⟨n + 1, h⟩ = acc ⟨n, by omega⟩ + g ⟨n + 1, h⟩) :
    acc ⟨63, by omega⟩ = ∑ n : Fin 64, g n := by
  have key := running_total 64 (fun n => if h : n < 64 then acc ⟨n, h⟩ else 0) (fun n => if h : n < 64 then g ⟨n, h⟩ else 0)
    (by
      show (if h : 0 < 64 then acc ⟨0, h⟩ else 0) = (if h : 0 < 64 then g ⟨0, h⟩ else 0)
      rw [dif_pos (show (0 : ℕ) < 64 by omega), dif_pos (show (0 : ℕ) < 64 by omega)]
      exact h0)
    (by
      intro n h
      have h' : n < 64 := by omega
      simp only [dif_pos h, dif_pos h']
      exact hs n h)
    63 (by omega)
  simp only [show (63 : ℕ) < 64 by omega, dif_pos] at key
  rw [key, ← Fin.sum_univ_eq_sum_range (fun n => if h : n < 64 then g ⟨n, h⟩ else 0) 64]
  refine Finset.sum_congr rfl fun n _ => ?_
  simp only [dif_pos n.isLt]

/-- Together: a running total over the 64 tiles in row-major order ends at the sum over the grid. -/
theorem running_total_grid {M : Type*} [AddCommMonoid M] (acc g : Fin 64 → M) (h0 : acc ⟨0, by omega⟩ = g ⟨0, by omega⟩)
    (hs : ∀ (n : ℕ) (h : n + 1 < 64), acc ⟨n + 1, h⟩ = acc ⟨n, by omega⟩ + g ⟨n + 1, h⟩) :
    acc ⟨63, by omega⟩ = ∑ i : Fin 8, ∑ j : Fin 8, g (pt i j) :=
  (running_total_last acc g h0 hs).trans (sum_points g)

end Cert.Regroup
-- ==== Proof.Blocks.lean ====
/-
  Where each input block of a grid point sits in the argument arrays.

  The grid has 8 × 8 points, visited in row-major order: point t has row coordinate i₀ = t / 8 and column coordinate
  i₁ = t % 8. The first input window cuts the 4096 × 1024 matrix into 8 blocks of 512 rows and hands the point block
  i₀; the second window cuts the same matrix the same way and hands it block i₁. The labels reach the region twice,
  reshaped to a column [4096, 1] and to a row [1, 4096]; the third window hands the point block i₀ of the column and
  the fourth block i₁ of the row. A block's entry at a coordinate inside the block is the array's entry at
  (block index) · (block extent) + (the coordinate), axis by axis, and a reshape keeps the row-major position.
-/
import proofs.«138779_j80693845557675_2_alg».proof.Proof.Stage
import proofs.«138779_j80693845557675_2_alg».proof.Proof.Regroup
import proofs.«138779_j80693845557675_2_alg».proof.Proof.LibKeepdims
import Idealize.ShloMosaic.Lib.ValueLayout
import Idealize.ShloMosaic.Lib.ValueIdx

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL.Sem

variable {F : FTy → Type} [FloatOps F]

variable (m : (ℓ : Loc nD τ sig) → Buf (Elt F) ℓ)

/-! ## The index maps over the grid -/

/-- The four input windows' block indices at point `t`, and `t` as the row-major number of its coordinates: decided
    once over the 64 points. -/
theorem idx_facts : ∀ t : Fin cfg0.N,
    win0_0.index t (0 : Fin 2) = (grid0.coords t 0).val ∧ win0_0.index t (1 : Fin 2) = 0
    ∧ win0_1.index t (0 : Fin 2) = (grid0.coords t 1).val ∧ win0_1.index t (1 : Fin 2) = 0
    ∧ win0_2.index t (0 : Fin 2) = (grid0.coords t 0).val ∧ win0_2.index t (1 : Fin 2) = 0
    ∧ win0_3.index t (0 : Fin 2) = 0 ∧ win0_3.index t (1 : Fin 2) = (grid0.coords t 1).val
    ∧ t.val = (grid0.coords t 0).val * 8 + (grid0.coords t 1).val :=
  (by decide +kernel : ∀ t : Fin grid0.N, _)

/-- Point `t` is the row-major number of its two coordinates. -/
theorem point_val (t : Fin cfg0.N) : t.val = (Regroup.pt (grid0.coords t 0) (grid0.coords t 1)).val :=
  (idx_facts t).2.2.2.2.2.2.2.2

/-- The row coordinate of point `t` is `t / 8` … -/
theorem coords_row (t : Fin cfg0.N) : (grid0.coords t 0).val = t.val / 8 := by
  have h := (idx_facts t).2.2.2.2.2.2.2.2
  have h1 : (grid0.coords t 1).val < 8 := (grid0.coords t 1).isLt
  omega

/-- … and the column coordinate is `t % 8`. -/
theorem coords_col (t : Fin cfg0.N) : (grid0.coords t 1).val = t.val % 8 := by
  have h := (idx_facts t).2.2.2.2.2.2.2.2
  have h1 : (grid0.coords t 1).val < 8 := (grid0.coords t 1).isLt
  omega

/-! ## The labels as the region finds them -/

/-- The column of labels is the label vector reshaped [4096] → [4096, 1]. -/
theorem V_main_v0 (c : Dev nD) :
    (V m c main_v0 : S4096x1.Idx → Elt F .i32)
      = shapeCast S4096x1 (m ((c : Thread nD τ).loc main_arg1)) shapeCasts_S4096_S4096x1 := by
  show StableHlo.after hostOps0 (fun b => m (c, b)) (Proc.devRef .tc main_v0) = _
  after_results
  rfl

/-- The row of labels is the label vector reshaped [4096] → [1, 4096]. -/
theorem V_main_v1 (c : Dev nD) :
    (V m c main_v1 : S1x4096.Idx → Elt F .i32)
      = shapeCast S1x4096 (m ((c : Thread nD τ).loc main_arg1)) shapeCasts_S4096_S1x4096 := by
  show StableHlo.after hostOps0 (fun b => m (c, b)) (Proc.devRef .tc main_v1) = _
  after_results
  rfl

/-! ## The four input blocks at explicit coordinates -/

/-- The first window's block at point `t` is rows `512 · i₀ …` of the matrix. -/
theorem iblk0_apply (c : Dev nD) (t : Fin cfg0.N) (p : Fin 512) (k : Fin 1024) :
    iblk m c 0 t (ix2 p k)
      = m ((c : Thread nD τ).loc main_arg0) (ix2 (Regroup.blk (grid0.coords t 0) p) k) := by
  obtain ⟨e0, e1, -⟩ := idx_facts t
  unfold iblk
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = (grid0.coords t 0).val * 512 + p.val; omega
  | ⟨1, _⟩ => show win0_0.index t (1 : Fin 2) * 1024 + 1 * k.val = k.val; omega

/-- The second window's block at point `t` is rows `512 · i₁ …` of the same matrix. -/
theorem iblk1_apply (c : Dev nD) (t : Fin cfg0.N) (q : Fin 512) (k : Fin 1024) :
    iblk m c 1 t (ix2 q k)
      = m ((c : Thread nD τ).loc main_arg0) (ix2 (Regroup.blk (grid0.coords t 1) q) k) := by
  obtain ⟨-, -, e0, e1, -⟩ := idx_facts t
  unfold iblk
  show V m c main_arg0 (((cfg0.win 1).blk t).view.emb (ix2 q k)) = _
  rw [V_main_arg0]
  refine congrArg _ (funext fun a => Fin.ext ?_)
  match a with
  | ⟨0, _⟩ => show win0_1.index t (0 : Fin 2) * 512 + 1 * q.val = (grid0.coords t 1).val * 512 + q.val; omega
  | ⟨1, _⟩ => show win0_1.index t (1 : Fin 2) * 1024 + 1 * k.val = k.val; omega

/-- The third window's block at point `t` is labels `512 · i₀ …`, as a column. -/
theorem iblk2_apply (c : Dev nD) (t : Fin cfg0.N) (p : Fin 512) :
    iblk m c 2 t (ix2 p (0 : Fin 1))
      = m ((c : Thread nD τ).loc main_arg1) (ix1 (Regroup.blk (grid0.coords t 0) p)) := by
  obtain ⟨-, -, -, -, e0, e1, -⟩ := idx_facts t
  unfold iblk
  show V m c main_v0 (((cfg0.win 2).blk t).view.emb (ix2 p (0 : Fin 1))) = _
  rw [V_main_v0]
  have hi : ((cfg0.win 2).blk t).view.emb (ix2 p (0 : Fin 1))
      = (ix2 (Regroup.blk (grid0.coords t 0) p) (0 : Fin 1) : S4096x1.Idx) := by
    funext a; apply Fin.ext
    match a with
    | ⟨0, _⟩ => show win0_2.index t (0 : Fin 2) * 512 + 1 * p.val = (grid0.coords t 0).val * 512 + p.val; omega
    | ⟨1, _⟩ => show win0_2.index t (1 : Fin 2) * 1 + 1 * 0 = 0; omega
  rw [hi]
  exact Cert.Lib.Keepdims.castCol_apply _ _ _

/-- The fourth window's block at point `t` is labels `512 · i₁ …`, as a row. -/
theorem iblk3_apply (c : Dev nD) (t : Fin cfg0.N) (q : Fin 512) :
    iblk m c 3 t (ix2 (0 : Fin 1) q)
      = m ((c : Thread nD τ).loc main_arg1) (ix1 (Regroup.blk (grid0.coords t 1) q)) := by
  obtain ⟨-, -, -, -, -, -, e0, e1, -⟩ := idx_facts t
  unfold iblk
  show V m c main_v1 (((cfg0.win 3).blk t).view.emb (ix2 (0 : Fin 1) q)) = _
  rw [V_main_v1]
  have hi : ((cfg0.win 3).blk t).view.emb (ix2 (0 : Fin 1) q)
      = (ix2 (0 : Fin 1) (Regroup.blk (grid0.coords t 1) q) : S1x4096.Idx) := by
    funext a; apply Fin.ext
    match a with
    | ⟨0, _⟩ => show win0_3.index t (0 : Fin 2) * 1 + 1 * 0 = 0; omega
    | ⟨1, _⟩ => show win0_3.index t (1 : Fin 2) * 512 + 1 * q.val = (grid0.coords t 1).val * 512 + q.val; omega
  rw [hi]
  exact shapeCast_a_1a_apply _ _ _ _

end Cert.KernelIdeal.Hand

end
-- ==== Proof.TileForm.lean ====
/-
  The specification, tile by tile.

  Cut the 4096 rows into 8 blocks of 512. The same-label sum and the different-label sum over all pairs of rows are
  then sums over the 8 × 8 tiles of the sums over the 512 × 512 pairs inside a tile, the two grid sums merge into one
  sum of (same-label tile sum + different-label tile sum), and a running total that visits the 64 tiles in row-major
  order, adding one tile's two sums at each step, ends at that grid sum. Only commutativity and associativity of the
  addition of extended reals are used.
-/
import proofs.«138779_j80693845557675_2_alg».proof.Proof.Spec
import proofs.«138779_j80693845557675_2_alg».proof.Proof.Regroup

noncomputable section

open scoped BigOperators

namespace Cert.TileForm

open Idealize.ShloMosaic Idealize.ShloMosaic.ValueIdx Cert.Spec Cert.Regroup

/-- The same-label sum over tile `(i, j)`: rows `i · 512 + p`, columns `j · 512 + q`. -/
def tilePos (x : (⟨2, ![4096, 1024]⟩ : Shape).Idx → EReal) (t : (⟨1, ![4096]⟩ : Shape).Idx → BitVec 32) (i j : Fin 8) : EReal :=
  ∑ p : Fin 512, ∑ q : Fin 512,
    pairPos (t (ix1 (blk i p))) (t (ix1 (blk j q))) (eye (blk i p) (blk j q)) (sim x (blk i p) (blk j q))

/-- The different-label sum over tile `(i, j)`. -/
def tileNeg (x : (⟨2, ![4096, 1024]⟩ : Shape).Idx → EReal) (t : (⟨1, ![4096]⟩ : Shape).Idx → BitVec 32) (i j : Fin 8) : EReal :=
  ∑ p : Fin 512, ∑ q : Fin 512,
    pairNeg (t (ix1 (blk i p))) (t (ix1 (blk j q))) (sim x (blk i p) (blk j q))

/-- What one tile adds to the running total. -/
def tileSum (x : (⟨2, ![4096, 1024]⟩ : Shape).Idx → EReal) (t : (⟨1, ![4096]⟩ : Shape).Idx → BitVec 32) (i j : Fin 8) : EReal :=
  tilePos x t i j + tileNeg x t i j

/-- The same-label sum is the sum of its tiles … -/
theorem posSum_tiles (x : (⟨2, ![4096, 1024]⟩ : Shape).Idx → EReal) (t : (⟨1, ![4096]⟩ : Shape).Idx → BitVec 32) :
    posSum x t = ∑ i : Fin 8, ∑ j : Fin 8, tilePos x t i j :=
  sum_tiles (fun r c => pairPos (t (ix1 r)) (t (ix1 c)) (eye r c) (sim x r c))

/-- … and so is the different-label sum. -/
theorem negSum_tiles (x : (⟨2, ![4096, 1024]⟩ : Shape).Idx → EReal) (t : (⟨1, ![4096]⟩ : Shape).Idx → BitVec 32) :
    negSum x t = ∑ i : Fin 8, ∑ j : Fin 8, tileNeg x t i j :=
  sum_tiles (fun r c => pairNeg (t (ix1 r)) (t (ix1 c)) (sim x r c))

/-- Both sums together are the grid sum of what each tile adds. -/
theorem sums_tiles (x : (⟨2, ![4096, 1024]⟩ : Shape).Idx → EReal) (t : (⟨1, ![4096]⟩ : Shape).Idx → BitVec 32) :
    posSum x t + negSum x t = ∑ i : Fin 8, ∑ j : Fin 8, tileSum x t i j := by
  rw [posSum_tiles, negSum_tiles, ← Finset.sum_add_distrib]
  refine Finset.sum_congr rfl fun i _ => ?_
  rw [← Finset.sum_add_distrib]
  rfl

/-- The loss as the grid sum over the divisor's word. -/
theorem total_tiles (x : (⟨2, ![4096, 1024]⟩ : Shape).Idx → EReal) (t : (⟨1, ![4096]⟩ : Shape).Idx → BitVec 32) :
    total x t = Ideal.div (∑ i : Fin 8, ∑ j : Fin 8, tileSum x t i j) (Ideal.ofBits .f32 0x45800000#32) := by
  unfold total
  rw [sums_tiles]

/-- The tile visited at step `n` of the row-major order: row `n / 8`, column `n % 8` of the grid. -/
def stepRow (n : Fin 64) : Fin 8 := ⟨n.val / 8, by have := n.isLt; omega⟩
def stepCol (n : Fin 64) : Fin 8 := ⟨n.val % 8, by omega⟩

theorem stepRow_pt (i j : Fin 8) : stepRow (pt i j) = i := by
  apply Fin.ext; show (i.val * 8 + j.val) / 8 = i.val; have := j.isLt; omega
theorem stepCol_pt (i j : Fin 8) : stepCol (pt i j) = j := by
  apply Fin.ext; show (i.val * 8 + j.val) % 8 = j.val; have := j.isLt; omega

/-- A running total over the 64 tiles in row-major order — the first tile's sum, then one further tile's sum added at
    each step — ends at the sum of both sums over all pairs; divided by the divisor's word it is the loss. -/
theorem total_of_running (x : (⟨2, ![4096, 1024]⟩ : Shape).Idx → EReal) (t : (⟨1, ![4096]⟩ : Shape).Idx → BitVec 32)
    (acc : Fin 64 → EReal)
    (h0 : acc ⟨0, by omega⟩ = tileSum x t (stepRow ⟨0, by omega⟩) (stepCol ⟨0, by omega⟩))
    (hs : ∀ (n : ℕ) (h : n + 1 < 64),
      acc ⟨n + 1, h⟩ = acc ⟨n, by omega⟩ + tileSum x t (stepRow ⟨n + 1, h⟩) (stepCol ⟨n + 1, h⟩)) :
    Ideal.div (acc ⟨63, by omega⟩) (Ideal.ofBits .f32 0x45800000#32) = total x t := by
  rw [total_tiles, running_total_grid acc (fun n => tileSum x t (stepRow n) (stepCol n)) h0 hs]
  refine congrArg (fun s => Ideal.div s (Ideal.ofBits .f32 0x45800000#32)) ?_
  refine Finset.sum_congr rfl fun i _ => Finset.sum_congr rfl fun j _ => ?_
  show tileSum x t (stepRow (pt i j)) (stepCol (pt i j)) = tileSum x t i j
  rw [stepRow_pt, stepCol_pt]

end Cert.TileForm

end
-- ==== Proof.TileTotal.lean ====
/-
  One grid point's stored value, and the last accumulator, in the specification's terms.

  Point (i, j) of the grid reads rows 512 i … of the matrix, rows 512 j … of the same matrix, labels 512 i … as a
  column and labels 512 j … as a row. With these blocks the value the point stores is the accumulator it found plus
  the same-label and the different-label sums over the tile (i, j) of the specification: the tile's diagonal bit at
  (p, q) is the whole array's diagonal bit at (512 i + p, 512 j + q), and the blocks' rows are the matrix's rows.
  A running total of these 64 tile sums from zero, divided by the divisor's word, is the specification's loss.
-/
import proofs.«138779_j80693845557675_2_alg».proof.Proof.Spec
import proofs.«138779_j80693845557675_2_alg».proof.Proof.Regroup
import proofs.«138779_j80693845557675_2_alg».proof.Proof.TileForm
import proofs.«138779_j80693845557675_2_alg».proof.Proof.TileValue

noncomputable section

open scoped BigOperators

namespace Cert.KernelIdeal.TileTotal

open Idealize.ShloMosaic Idealize.ShloMosaic.ValueIdx Cert.KernelIdeal Cert.KernelIdeal.Gen Cert.Regroup
open Cert.TileForm (tileSum tilePos tileNeg stepRow stepCol)

/-- Block `i` of the matrix's rows: rows `512 i …`. -/
def xRows (x : FVec Ideal S4096x1024 .f32) (i : Fin 8) : Vec Ideal S512x1024 .f32 :=
  fun idx => x (ix2 (blk i (idx 0)) (idx 1))

/-- Block `i` of the labels, as a column. -/
def tCol (t : IVec S4096 32) (i : Fin 8) : Vec Ideal S512x1 .i32 := fun idx => t (ix1 (blk i (idx 0)))

/-- Block `j` of the labels, as a row. -/
def tRow (t : IVec S4096 32) (j : Fin 8) : Vec Ideal S1x512 .i32 := fun idx => t (ix1 (blk j (idx 1)))

theorem xRows_apply (x : FVec Ideal S4096x1024 .f32) (i : Fin 8) (p : Fin 512) (k : Fin 1024) :
    xRows x i (ix2 p k) = x (ix2 (blk i p) k) := rfl
theorem tCol_apply (t : IVec S4096 32) (i : Fin 8) (p : Fin 512) : tCol t i (ix2 p (0 : Fin 1)) = t (ix1 (blk i p)) := rfl
theorem tRow_apply (t : IVec S4096 32) (j : Fin 8) (q : Fin 512) : tRow t j (ix2 (0 : Fin 1) q) = t (ix1 (blk j q)) := rfl

/-- The value point `i = (i₀, i₁)` stores, read at the accumulator's one entry: what it found plus the two sums over
    tile `(i₀, i₁)`. -/
theorem tile_at (x : FVec Ideal S4096x1024 .f32) (t : IVec S4096 32) (i : grid0.Coords) (acc : Vec Ideal S1x1 .f32) :
    TileValue.tile (F := Ideal) i (xRows x (i 0)) (xRows x (i 1)) (tCol t (i 0)) (tRow t (i 1)) acc
        (ix2 (0 : Fin 1) (0 : Fin 1))
      = acc (ix2 (0 : Fin 1) (0 : Fin 1)) + tileSum x t (i 0) (i 1) := by
  rw [TileValue.tile_apply]
  refine congrArg (acc (ix2 (0 : Fin 1) (0 : Fin 1)) + ·) ?_
  unfold tileSum tilePos tileNeg
  refine congrArg₂ (· + ·) ?_ ?_
  · refine Finset.sum_congr rfl fun p _ => Finset.sum_congr rfl fun q _ => ?_
    rw [TileValue.diag_eq_eye i p q (blk (i 0) p) (blk (i 1) q) rfl rfl]
    rfl
  · exact Finset.sum_congr rfl fun p _ => Finset.sum_congr rfl fun q _ => rfl

/-- The same for blocks given as any functions that read, at explicit coordinates, the matrix's rows and the
    labels of the point's two blocks. -/
theorem tile_at_of_blocks (x : FVec Ideal S4096x1024 .f32) (t : IVec S4096 32) (i : grid0.Coords)
    (xi xj : Vec Ideal S512x1024 .f32) (ti : Vec Ideal S512x1 .i32) (tj : Vec Ideal S1x512 .i32)
    (hxi : ∀ (p : Fin 512) (k : Fin 1024), xi (ix2 p k) = x (ix2 (blk (i 0) p) k))
    (hxj : ∀ (q : Fin 512) (k : Fin 1024), xj (ix2 q k) = x (ix2 (blk (i 1) q) k))
    (hti : ∀ p : Fin 512, ti (ix2 p (0 : Fin 1)) = t (ix1 (blk (i 0) p)))
    (htj : ∀ q : Fin 512, tj (ix2 (0 : Fin 1) q) = t (ix1 (blk (i 1) q)))
    (acc : Vec Ideal S1x1 .f32) :
    TileValue.tile (F := Ideal) i xi xj ti tj acc (ix2 (0 : Fin 1) (0 : Fin 1))
      = acc (ix2 (0 : Fin 1) (0 : Fin 1)) + tileSum x t (i 0) (i 1) := by
  have exi : xi = xRows x (i 0) := funext fun idx => by rw [eq_ix2 idx]; exact hxi _ _
  have exj : xj = xRows x (i 1) := funext fun idx => by rw [eq_ix2 idx]; exact hxj _ _
  have eti : ti = tCol t (i 0) := funext fun idx => by
    have h0 : idx 1 = (0 : Fin 1) := Subsingleton.elim (α := Fin 1) _ _
    rw [eq_ix2 idx, h0]; exact hti _
  have etj : tj = tRow t (i 1) := funext fun idx => by
    have h0 : idx 0 = (0 : Fin 1) := Subsingleton.elim (α := Fin 1) _ _
    rw [eq_ix2 idx, h0]; exact htj _
  rw [exi, exj, eti, etj]
  exact tile_at x t i acc

/-- A running total over the 64 points in row-major order that starts from zero — the first point stores
    `0 +` its tile's sum, each later point what it found plus its tile's sum — ends, divided by the divisor's word,
    at the specification's loss. -/
theorem total_of_running (x : FVec Ideal S4096x1024 .f32) (t : IVec S4096 32) (a : Fin 64 → EReal)
    (h0 : a ⟨0, by omega⟩ = 0 + tileSum x t (stepRow ⟨0, by omega⟩) (stepCol ⟨0, by omega⟩))
    (hs : ∀ (n : ℕ) (h : n + 1 < 64),
      a ⟨n + 1, h⟩ = a ⟨n, by omega⟩ + tileSum x t (stepRow ⟨n + 1, h⟩) (stepCol ⟨n + 1, h⟩)) :
    Ideal.div (a ⟨63, by omega⟩) (Ideal.ofBits .f32 0x45800000#32) = Spec.total x t :=
  Cert.TileForm.total_of_running x t a (by rw [h0, zero_add]) hs

end Cert.KernelIdeal.TileTotal

end
-- ==== Proof.PointValue.lean ====
/-
  The value a grid point stores, from the launch contents of the two argument arrays.

  Point t of the 64, with row coordinate t / 8 and column coordinate t % 8, finds in its four input windows the
  rows 512 (t / 8) … and 512 (t % 8) … of the matrix and the matching labels as a column and as a row. So what it
  stores into the accumulator's one entry is what it found there plus the two sums of the specification over the
  tile (t / 8, t % 8).
-/
import proofs.«138779_j80693845557675_2_alg».proof.Proof.Blocks
import proofs.«138779_j80693845557675_2_alg».proof.Proof.TileTotal

set_option maxRecDepth 16384

noncomputable section

namespace Cert.KernelIdeal.Hand

open Cert.KernelIdeal.Gen
open Idealize.ShloMosaic Idealize.ShloMosaic.TcCoe Idealize.ShloMosaic.ValueIdx
open Idealize.SL.Sem

/-- Point `t` as a number below 64. -/
def pointOf (t : Fin cfg0.N) : Fin 64 := ⟨t.val, lt_of_lt_of_eq t.isLt N_0⟩

@[simp] theorem pointOf_val (t : Fin cfg0.N) : (pointOf t).val = t.val := rfl

/-- The row coordinate of point `t` is the row the running total visits at step `t` … -/
theorem coords_row_eq (t : Fin cfg0.N) : (grid0.coords t 0 : Fin 8) = Cert.TileForm.stepRow (pointOf t) :=
  Fin.ext (coords_row t)

/-- … and the column coordinate is its column. -/
theorem coords_col_eq (t : Fin cfg0.N) : (grid0.coords t 1 : Fin 8) = Cert.TileForm.stepCol (pointOf t) :=
  Fin.ext (coords_col t)

variable (m : (ℓ : Loc nD τ sig) → Buf (Elt Ideal) ℓ)

/-- What point `t` stores, read at the accumulator's one entry: what it found plus the sums over its tile, in terms of
    the launch contents of the matrix and of the labels. -/
theorem point_value (c : Dev nD) (t : Fin cfg0.N) (acc : Vec Ideal S1x1 .f32) :
    TileValue.tile (F := Ideal) (grid0.coords t) (iblk m c 0 t) (iblk m c 1 t) (iblk m c 2 t) (iblk m c 3 t) acc
        (ix2 (0 : Fin 1) (0 : Fin 1))
      = acc (ix2 (0 : Fin 1) (0 : Fin 1))
        + Cert.TileForm.tileSum (m ((c : Thread nD τ).loc main_arg0)) (m ((c : Thread nD τ).loc main_arg1))
            (Cert.TileForm.stepRow (pointOf t)) (Cert.TileForm.stepCol (pointOf t)) := by
  rw [← coords_row_eq, ← coords_col_eq]
  exact TileTotal.tile_at_of_blocks (m ((c : Thread nD τ).loc main_arg0)) (m ((c : Thread nD τ).loc main_arg1))
    (grid0.coords t) (iblk m c 0 t) (iblk m c 1 t) (iblk m c 2 t) (iblk m c 3 t)
    (iblk0_apply m c t) (iblk1_apply m c t) (iblk2_apply m c t) (iblk3_apply m c t) acc

end Cert.KernelIdeal.Hand

end
-- ==== Proof.RunningTotal.lean ====
/-
  The running total over the 64 grid points, and the result.

  The scratch's one entry after the first point is zero plus the first tile's two sums; after every later point it is
  what the point before left plus that point's tile's two sums, the tiles being visited in row-major order. At the
  last point the output window's buffer receives the scratch's value. So the output's entry, divided by the divisor's
  word, is the specification's loss: a running total of the 64 tile sums is the sum over all pairs, by commutativity
  and associativity of the addition of extended reals alone.
-/
import proofs.«138779_j80693845557675_2_alg».proof.Proof.Accum
import proofs.«138779_j80693845557675_2_alg».proof.Proof.Pieces
import proofs.«138779_j80693845557675_2_alg».proof.Proof.PointValue

set_option maxRecDepth 16384

noncomputable section

namespace Cert.KernelIdeal.Hand

open Cert.KernelIdeal.Gen
open Idealize.ShloMosaic Idealize.ShloMosaic.TcCoe Idealize.ShloMosaic.ValueIdx
open Idealize.SL.Sem
open Cert.TileForm (tileSum stepRow stepCol)

variable (m : (ℓ : Loc nD τ sig) → Buf (Elt Ideal) ℓ)

/-- After the first point the scratch's entry is zero plus the first tile's sums. -/
theorem scratch_first (c : Dev nD) (h0 : 0 < cfg0.N) :
    (outsAt m c 0 h0).2 (ix2 (0 : Fin 1) (0 : Fin 1))
      = 0 + tileSum (m ((c : Thread nD τ).loc main_arg0)) (m ((c : Thread nD τ).loc main_arg1))
          (stepRow ⟨0, by omega⟩) (stepCol ⟨0, by omega⟩) := by
  refine (congrFun (congrArg Prod.snd (outsAt_first m c ⟨0, h0⟩ rfl (show ¬(0 : ℕ) = 63 by decide))) _).trans ?_
  dsimp only
  rw [accFirst_eq]
  refine (point_value m c ⟨0, h0⟩ _).trans ?_
  rw [TileValue.reset_apply]
  rfl

/-- After any later point the scratch's entry is what the point before left plus this point's tile's sums. -/
theorem scratch_at (c : Dev nD) (t : Fin cfg0.N) (h0 : ¬t.val = 0) :
    (outsAt m c t.val t.isLt).2 (ix2 (0 : Fin 1) (0 : Fin 1))
      = (outsAt m c (t.val - 1) (Nat.lt_of_le_of_lt (Nat.sub_le _ _) t.isLt)).2 (ix2 (0 : Fin 1) (0 : Fin 1))
        + tileSum (m ((c : Thread nD τ).loc main_arg0)) (m ((c : Thread nD τ).loc main_arg1))
            (stepRow (pointOf t)) (stepCol (pointOf t)) := by
  by_cases h1 : t.val = 63
  · refine (congrFun (congrArg Prod.snd (outsAt_last m c t h0 h1)) _).trans ?_
    dsimp only
    rw [accLast_eq]
    exact point_value m c t _
  · refine (congrFun (congrArg Prod.snd (outsAt_middle m c t h0 h1)) _).trans ?_
    dsimp only
    rw [accMiddle_eq]
    exact point_value m c t _

/-- The same at position n + 1, over position n. -/
theorem scratch_step (c : Dev nD) (n : ℕ) (hn : n + 1 < cfg0.N) (hn' : n < cfg0.N) (h64 : n + 1 < 64) :
    (outsAt m c (n + 1) hn).2 (ix2 (0 : Fin 1) (0 : Fin 1))
      = (outsAt m c n hn').2 (ix2 (0 : Fin 1) (0 : Fin 1))
        + tileSum (m ((c : Thread nD τ).loc main_arg0)) (m ((c : Thread nD τ).loc main_arg1))
            (stepRow ⟨n + 1, h64⟩) (stepCol ⟨n + 1, h64⟩) :=
  scratch_at m c ⟨n + 1, hn⟩ (Nat.succ_ne_zero n)

/-- At the last position the output window's buffer holds what the scratch holds. -/
theorem out_eq_scratch (c : Dev nD) (h63 : 63 < cfg0.N) : (outsAt m c 63 h63).1 = (outsAt m c 63 h63).2 := by
  have e := outsAt_last m c ⟨63, h63⟩ (show ¬(63 : ℕ) = 0 by decide) rfl
  refine (congrArg Prod.fst e).trans (Eq.trans ?_ (congrArg Prod.snd e).symm)
  dsimp only
  rw [outLast_eq, accLast_eq]

/-- A sequence of 64 extended reals that starts at zero plus the first tile's sums and adds one further tile's sums at
    each step, in row-major order, ends — over the divisor's word — at the specification's loss. -/
theorem total_of_sequence (x : FVec Ideal S4096x1024 .f32) (t : IVec S4096 32) (s : (n : ℕ) → n < 64 → EReal)
    (v : EReal)
    (h0 : s 0 (by omega) = 0 + tileSum x t (stepRow ⟨0, by omega⟩) (stepCol ⟨0, by omega⟩))
    (hs : ∀ (n : ℕ) (h : n + 1 < 64),
      s (n + 1) h = s n (by omega) + tileSum x t (stepRow ⟨n + 1, h⟩) (stepCol ⟨n + 1, h⟩))
    (hv : v = s 63 (by omega)) :
    Ideal.div v (Ideal.ofBits .f32 0x45800000#32) = Spec.total x t := by
  subst hv
  exact TileTotal.total_of_running x t (fun n => s n.val n.isLt) h0 hs

/-- THE RESULT: the output's entry after the last point, over the divisor's word, is the specification's loss of the
    launch contents of the matrix and of the labels. -/
theorem out_total (c : Dev nD) (h63 : 63 < cfg0.N) :
    Ideal.div ((outsAt m c 63 h63).1 (ix2 (0 : Fin 1) (0 : Fin 1))) (Ideal.ofBits .f32 0x45800000#32)
      = Spec.total (m ((c : Thread nD τ).loc main_arg0)) (m ((c : Thread nD τ).loc main_arg1)) := by
  rw [out_eq_scratch m c h63]
  have h0 := scratch_first m c (lt_of_lt_of_eq (show 0 < 64 by omega) N_0.symm)
  have hs := fun (n : ℕ) (h : n + 1 < 64) =>
    scratch_step m c n (lt_of_lt_of_eq h N_0.symm) (lt_of_lt_of_eq (show n < 64 by omega) N_0.symm) h
  generalize outsAt m c = S at h0 hs ⊢
  exact total_of_sequence _ _ (fun n h => (S n (lt_of_lt_of_eq h N_0.symm)).2 (ix2 (0 : Fin 1) (0 : Fin 1))) _ h0 hs rfl

/-- The same at the last point given as a point of the grid. -/
theorem out_total_at (c : Dev nD) (t : Fin cfg0.N) (ht : t.val = 63) :
    Ideal.div ((outsAt m c t.val t.isLt).1 (ix2 (0 : Fin 1) (0 : Fin 1))) (Ideal.ofBits .f32 0x45800000#32)
      = Spec.total (m ((c : Thread nD τ).loc main_arg0)) (m ((c : Thread nD τ).loc main_arg1)) := by
  obtain ⟨n, hn⟩ := t
  have e : n = 63 := ht
  subst e
  exact out_total m c hn

end Cert.KernelIdeal.Hand

end
-- ==== Proof.KernelValue.lean ====
/-
  The program's result is the specification's loss.

  After the region the output array's one entry is what the last grid point left in the output window's buffer: the
  running total over all 64 tiles. The three lines after the region reshape that [1, 1] array to a scalar and divide it
  by the constant 4096; on the extended reals the host's quotient of two scalars is the quotient of their entries, the
  reshaped scalar's entry is the array's entry, and the constant is the number its word encodes. The running total
  over the divisor is the loss of the specification, so the result buffer ends holding it and the two argument
  arrays end as they began.
-/
import proofs.«138779_j80693845557675_2_alg».proof.Proof.Result
import proofs.«138779_j80693845557675_2_alg».proof.Proof.OutArray
import proofs.«138779_j80693845557675_2_alg».proof.Proof.LibColumnSum
import proofs.«138779_j80693845557675_2_alg».proof.Proof.Spec
import proofs.«138779_j80693845557675_2_alg».proof.Proof.RunningTotal

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The last of the 64 points. -/
theorem last_lt : 63 < cfg0.N := lt_of_lt_of_eq (by omega) N_0.symm

/-- The result buffer's contents, given what the last point's total over the divisor is: the reshaped output array
    over the constant is that quotient, at the scalar's one index. -/
theorem result_of_total (c : Dev nD) (T : EReal)
    (htot : Ideal.div ((outsAt m c 63 last_lt).1 (ix2 (0 : Fin 1) (0 : Fin 1))) (Ideal.ofBits .f32 0x45800000#32) = T) :
    Host.divf (F := Ideal) (shapeCast S_ (outFinal m c) shapeCasts_S1x1_S_) (constant S_ .f32 0x45800000#32)
      = fun _ => T := by
  funext j
  show Ideal.div (shapeCast S_ (outFinal m c) shapeCasts_S1x1_S_ j) (Ideal.ofBits .f32 0x45800000#32) = T
  refine (congrArg (fun s => Ideal.div s (Ideal.ofBits .f32 0x45800000#32))
    (Cert.Lib.ColumnSum.blockAsScalar_apply (outFinal m c : S1x1.Idx → Elt Ideal .f32) shapeCasts_S1x1_S_ j)).trans ?_
  refine (congrArg (fun s => Ideal.div s (Ideal.ofBits .f32 0x45800000#32)) (out_array_apply m c last_lt)).trans ?_
  exact htot

/-- The run, read at the program's arguments and result, given that the last point's total over the divisor is the
    specification's loss on every core: the result buffer ends at the loss, the argument arrays unchanged. -/
theorem run_value_of
    (htot : ∀ c : Dev nD,
      Ideal.div ((outsAt m c 63 last_lt).1 (ix2 (0 : Fin 1) (0 : Fin 1))) (Ideal.ofBits .f32 0x45800000#32)
        = Spec.total (m ((c.tc : Thread nD τ).loc main_arg0)) (m ((c.tc : Thread nD τ).loc main_arg1))) :
    θ_run defs (onTc (τ := τ) (main (F := Ideal))) ⟨m, fun _ => 0, ρ⟩ (fun r => ∀ c : Dev nD,
      r.2.mem ((c.tc : Thread nD τ).loc main_v4)
        = (fun _ => Spec.total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_of_total m c _ (htot c)), (h c).2⟩) (run_result m ρ)

/-- The result buffer's contents: the reshaped output array over the constant 4096 is the specification's loss of the
    launch contents of the matrix and of the labels. -/
theorem result_total (c : Dev nD) :
    Host.divf (F := Ideal) (shapeCast S_ (outFinal m c) shapeCasts_S1x1_S_) (constant S_ .f32 0x45800000#32)
      = fun _ => Spec.total (m ((c : Thread nD τ).loc main_arg0)) (m ((c : Thread nD τ).loc main_arg1)) :=
  result_of_total m c _ (out_total m c last_lt)

/-- THE RUN, READ: the program runs to the end with its result buffer at the specification's loss of the launch
    contents of its two arguments, and the arguments unchanged. -/
theorem run_value :
    θ_run defs (onTc (τ := τ) (main (F := Ideal))) ⟨m, fun _ => 0, ρ⟩ (fun r => ∀ c : Dev nD,
      r.2.mem ((c.tc : Thread nD τ).loc main_v4)
        = (fun _ => Spec.total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_value_of m ρ (fun c => out_total m c last_lt)

end Cert.KernelIdeal.Hand

end
-- ==== Proof.RefValue.lean ====
/-
  The reference's result is the specification.

  The reference forms the 4096 × 4096 matrix of similarities sim(r, c) = Σ_k x(r,k) · x(c,k) (a product of the matrix
  with its transpose), the mask "labels agree" (t r = t c) and the diagonal mask (r = c, by comparing two index
  arrays after adding the zero word to one), and sums over all pairs, from a zero initial value, the terms
  (1 − sim) where the labels agree off the diagonal and sim where they differ and sim > 1/2. Read at a pair (r, c)
  each of these arrays is the corresponding scalar of the specification, a sum over all index pairs is the double
  sum over the two coordinates, and adding to the zero initial value changes nothing.
-/
import proofs.«138779_j80693845557675_2_alg».proof.Proof.Gen.ReferenceIdeal.Read
import proofs.«138779_j80693845557675_2_alg».proof.Proof.Spec

noncomputable section

open scoped BigOperators

namespace Cert.ReferenceIdeal.RefValue

open Cert.ReferenceIdeal Cert.ReferenceIdeal.Read Idealize.ShloMosaic Idealize.ShloMosaic.ValueIdx

/-- The left factor of term `k` of entry `(r, c)` of the product is `x(r, k)` … -/
theorem left_index (r c : Fin 4096) (k : Fin 1024) : lidx_main_v1 (ix2 r c) k = ix2 r k := by
  funext a; match a with | ⟨0, _⟩ => rfl | ⟨1, _⟩ => rfl

/-- … and the right factor, an entry of the transpose, is `x(c, k)`. -/
theorem right_index (r c : Fin 4096) (k : Fin 1024) : idx_main_v0 (ridx_main_v1 (ix2 r c) k) = ix2 c k := by
  funext a; match a with | ⟨0, _⟩ => rfl | ⟨1, _⟩ => rfl

/-- Entry `(r, c)` of the product of the matrix with its transpose is the similarity of rows `r` and `c`. -/
theorem sim_at (x0 : FVec Ideal S4096x1024 .f32) (r c : Fin 4096) :
    val_main_v1 (F := Ideal) x0 (ix2 r c) = Spec.sim x0 r c := by
  rw [val_main_v1_apply]
  unfold Spec.sim Spec.dot Spec.row
  refine Finset.sum_congr rfl fun k _ => ?_
  rw [val_main_v0_apply, left_index, right_index]

/-- The labels repeated along the rows read, at `(r, c)`, the label of `r` … -/
theorem label_row (x1 : IVec S4096 32) (r c : Fin 4096) : val_main_v4 (F := Ideal) x1 (ix2 r c) = x1 (ix1 r) := by
  rw [val_main_v4_apply, val_main_v2_apply]
  exact congrArg x1 (funext fun a => match a with | ⟨0, _⟩ => rfl)

/-- … and repeated along the columns, the label of `c`. -/
theorem label_col (x1 : IVec S4096 32) (r c : Fin 4096) : val_main_v5 (F := Ideal) x1 (ix2 r c) = x1 (ix1 c) := by
  rw [val_main_v5_apply, val_main_v3_apply]
  exact congrArg x1 (funext fun a => match a with | ⟨0, _⟩ => rfl)

/-- The comparison of the row-index array (plus the zero word) with the column-index array is, at `(r, c)`, the
    diagonal bit: both indices are below 4096, so their 32-bit words are equal exactly when they are. -/
theorem diagonal_at (r c : Fin 4096) : val_main_v11 (F := Ideal) (ix2 r c) = Spec.eye r c := by
  rw [val_main_v11_apply, val_main_v10_apply, val_main_v7_apply, val_main_v9_apply, val_main_c_apply, val_main_v8_apply]
  show IntOp.cmpi .eq (IntOp.addi (BitVec.ofNat 32 r.val) 0#32) (BitVec.ofNat 32 c.val) = _
  rw [show IntOp.addi (BitVec.ofNat 32 r.val) 0#32 = BitVec.ofNat 32 r.val from BitVec.add_zero _]
  exact Spec.cmpi_eq_eye r c

/-- The same-label summand at `(r, c)`. -/
theorem pos_at (x0 : FVec Ideal S4096x1024 .f32) (x1 : IVec S4096 32) (r c : Fin 4096) :
    val_main_v17 (F := Ideal) x0 x1 (ix2 r c)
      = Spec.pairPos (x1 (ix1 r)) (x1 (ix1 c)) (Spec.eye r c) (Spec.sim x0 r c) := by
  rw [val_main_v17_apply, val_main_v13_apply, val_main_v6_apply, val_main_v12_apply, val_main_v16_apply,
    val_main_v15_apply, val_main_cst_apply, val_main_call0_v1_apply, val_main_call0_v0_apply, val_main_cst_0_apply,
    label_row, label_col, diagonal_at, sim_at]
  rfl

/-- The different-label summand at `(r, c)`. -/
theorem neg_at (x0 : FVec Ideal S4096x1024 .f32) (x1 : IVec S4096 32) (r c : Fin 4096) :
    val_main_v22 (F := Ideal) x0 x1 (ix2 r c)
      = Spec.pairNeg (x1 (ix1 r)) (x1 (ix1 c)) (Spec.sim x0 r c) := by
  rw [val_main_v22_apply, val_main_v21_apply, val_main_v14_apply, val_main_v6_apply, val_main_v20_apply,
    val_main_v19_apply, val_main_cst_2_apply, val_main_call1_v1_apply, val_main_call1_v0_apply, val_main_cst_3_apply,
    label_row, label_col, sim_at]
  rfl

/-- The first reduction: the zero initial value plus the sum over all pairs is the same-label sum. -/
theorem posSum_eq (x0 : FVec Ideal S4096x1024 .f32) (x1 : IVec S4096 32) (i : S_.Idx) :
    val_main_v18 (F := Ideal) x0 x1 i = Spec.posSum x0 x1 := by
  rw [val_main_v18_apply, val_main_cst_1_apply, Ideal.ofBits_def, Ideal.ofBits_zero_f32, zero_add,
    sum_idx2 (val_main_v17 (F := Ideal) x0 x1)]
  unfold Spec.posSum
  exact Finset.sum_congr rfl fun r _ => Finset.sum_congr rfl fun c _ => pos_at x0 x1 r c

/-- The second reduction likewise is the different-label sum. -/
theorem negSum_eq (x0 : FVec Ideal S4096x1024 .f32) (x1 : IVec S4096 32) (i : S_.Idx) :
    val_main_v23 (F := Ideal) x0 x1 i = Spec.negSum x0 x1 := by
  rw [val_main_v23_apply, val_main_cst_4_apply, Ideal.ofBits_def, Ideal.ofBits_zero_f32, zero_add,
    sum_idx2 (val_main_v22 (F := Ideal) x0 x1)]
  unfold Spec.negSum
  exact Finset.sum_congr rfl fun r _ => Finset.sum_congr rfl fun c _ => neg_at x0 x1 r c

/-- The reference's result, read at the scalar's one index, is the specification's loss. -/
theorem ref_eq (x0 : FVec Ideal S4096x1024 .f32) (x1 : IVec S4096 32) (i : S_.Idx) :
    val_main_v25 (F := Ideal) x0 x1 i = Spec.total x0 x1 := by
  rw [val_main_v25_apply, val_main_v24_apply, posSum_eq, negSum_eq, val_main_cst_5_apply]
  rfl

/-- The same as an equation of scalars-as-arrays. -/
theorem ref_eq_fun (x0 : FVec Ideal S4096x1024 .f32) (x1 : IVec S4096 32) :
    val_main_v25 (F := Ideal) x0 x1 = fun _ => Spec.total x0 x1 :=
  funext fun i => ref_eq x0 x1 i

end Cert.ReferenceIdeal.RefValue

end
-- ==== Proof.lean ====
/-
  The pairwise-similarity loss: an 8 x 8 grid of 512 x 512 tiles of x xᵀ, each tile masked against "same class, off the
  diagonal" and "different class, similarity above one half", summed, and accumulated in a [1,1] scratch; the total is
  divided by 4096 on the host. The reference forms the whole 4096 x 4096 similarity matrix and the two masked sums at once.

  On the extended reals the two are the same number: entry by entry the masked terms agree (the tile's matrix product
  into a zero accumulator is the row-by-row inner product; the diagonal test on 32-bit words below 4096 is equality of
  the global indices), and a finite sum in a commutative monoid may be grouped into tiles and accumulated point by point
  in any order. No finiteness of the inputs is used.

  The three frames: the kernel's two programs (at the word level and on the extended reals) run through the launch of a
  pipeline two of whose windows share one array, each holding half of it; the reference's is its host run with the
  result dropped. The idealization rewrote nothing, so the preservation conjunct is empty.
-/
import proofs.«138779_j80693845557675_2_alg».proof.Defs
import proofs.«138779_j80693845557675_2_alg».proof.Proof.Gen.Kernel
import proofs.«138779_j80693845557675_2_alg».proof.Proof.Gen.KernelIdeal
import proofs.«138779_j80693845557675_2_alg».proof.Proof.Gen.ReferenceIdeal
import proofs.«138779_j80693845557675_2_alg».proof.Proof.Gen.Pre_finite_inputs
import proofs.«138779_j80693845557675_2_alg».proof.Proof.Gen.ReferenceIdeal.Run
import proofs.«138779_j80693845557675_2_alg».proof.Proof.Gen.ReferenceIdeal.Read
import proofs.«138779_j80693845557675_2_alg».proof.Proof.WordResult
import proofs.«138779_j80693845557675_2_alg».proof.Proof.KernelValue
import proofs.«138779_j80693845557675_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments alone. -/
theorem frame_kernel : Cert.frame_Kernel := fun m ρ _ => Cert.Kernel.Hand.frame (F := Bits) m ρ

/-- So does the kernel read on the extended reals. -/
theorem frame_kernelIdeal : Cert.frame_KernelIdeal := fun m ρ _ => Cert.KernelIdeal.Hand.frame (F := Ideal) m ρ

/-- The reference's frame is its host run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the loss `Spec.total` of the argument arrays in their result buffer. -/
theorem algebraic : Cert.algebraic_KernelIdeal_ReferenceIdeal := by
  intro m ρ m' ρ' _ hagree
  refine ⟨fun c => fun _ => Cert.Spec.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨(h c).1.trans
      (((Cert.ReferenceIdeal.Read.val_main_v25_eq _ _).trans (Cert.ReferenceIdeal.RefValue.ref_eq_fun _ _)).trans ?_), (h c).2⟩)
    (Cert.ReferenceIdeal.Value.run (F := Ideal) m' ρ')
  rw [(hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
